-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v13)) (v1 : (c : Dev Cert.KernelIdeal.nD) → Buf (Elt Ideal) ((c.tc : Thread Cert.KernelIdeal.nD Cert.KernelIdeal.τ).loc Cert.KernelIdeal.main_v12_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_v12_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_v57) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x2048 : Shape := ⟨2, ![2048, 2048]⟩
abbrev S2048x4096x16 : Shape := ⟨3, ![2048, 4096, 16]⟩
abbrev S8192x2048 : Shape := ⟨2, ![8192, 2048]⟩
abbrev S33x4096 : Shape := ⟨2, ![33, 4096]⟩
abbrev S4096x16 : Shape := ⟨2, ![4096, 16]⟩
abbrev S4096 : Shape := ⟨1, ![4096]⟩
abbrev S2048x4096 : Shape := ⟨2, ![2048, 4096]⟩
abbrev S2048 : Shape := ⟨1, ![2048]⟩
abbrev S_ : Shape := ⟨0, ![]⟩

class Facts : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel
  bcast_S_S2048x4096x16 : S_.BroadcastsInDim S2048x4096x16 (![] : Fin 0 → Fin S2048x4096x16.rank)
  reducesTo_S2048x4096x16_S_d0_1_2 : S2048x4096x16.ReducesTo [0, 1, 2] S_
  bcast_S_S8192x2048 : S_.BroadcastsInDim S8192x2048 (![] : Fin 0 → Fin S8192x2048.rank)
  reducesTo_S8192x2048_S_d0_1 : S8192x2048.ReducesTo [0, 1] S_
  bcast_S_S33x4096 : S_.BroadcastsInDim S33x4096 (![] : Fin 0 → Fin S33x4096.rank)
  reducesTo_S33x4096_S_d0_1 : S33x4096.ReducesTo [0, 1] S_
  bcast_S_S4096x16 : S_.BroadcastsInDim S4096x16 (![] : Fin 0 → Fin S4096x16.rank)
  reducesTo_S4096x16_S_d0_1 : S4096x16.ReducesTo [0, 1] S_
  bcast_S_S4096 : S_.BroadcastsInDim S4096 (![] : Fin 0 → Fin S4096.rank)
  reducesTo_S4096_S_d0 : S4096.ReducesTo [0] S_
  bcast_S_S2048x4096 : S_.BroadcastsInDim S2048x4096 (![] : Fin 0 → Fin S2048x4096.rank)
  reducesTo_S2048x4096_S_d0_1 : S2048x4096.ReducesTo [0, 1] S_
  bcast_S_S2048 : S_.BroadcastsInDim S2048 (![] : Fin 0 → Fin S2048.rank)
  reducesTo_S2048_S_d0 : S2048.ReducesTo [0] S_

variable [Facts]

def fn_part2 {F : FTy → Type} [FloatOps F] (main_arg7 : FVec F S2048x4096 .f32) (main_arg8 : FVec F S2048 .f32) (main_arg9 : FVec F S2048 .f32) (main_v33 : IVec S_ 1) : IVec S_ 1 :=
  let main_v34 : FVec F S2048x4096 .f32 := Host.absf main_arg7
  let main_cst_12 : FVec F S_ .f32 := constant S_ .f32 0x7F800000#32
  let main_v35 : FVec F S2048x4096 .f32 := broadcastInDim S2048x4096 ![] bcast_S_S2048x4096 main_cst_12
  let main_v36 : IVec S2048x4096 1 := cmpf .olt main_v34 main_v35
  let main_c_13 : IVec S_ 1 := constantI S_ 1 1#1
  let main_v37 : IVec S_ 1 := (fun x v => Host.reduce IntOp.andi x v reducesTo_S2048x4096_S_d0_1 h_S_) main_v36 main_c_13
  let main_v38 : IVec S_ 1 := andi main_v33 main_v37
  let main_v39 : FVec F S2048 .f32 := Host.absf main_arg8
  let main_cst_14 : FVec F S_ .f32 := constant S_ .f32 0x7F800000#32
  let main_v40 : FVec F S2048 .f32 := broadcastInDim S2048 ![] bcast_S_S2048 main_cst_14
  let main_v41 : IVec S2048 1 := cmpf .olt main_v39 main_v40
  let main_c_15 : IVec S_ 1 := constantI S_ 1 1#1
  let main_v42 : IVec S_ 1 := (fun x v => Host.reduce IntOp.andi x v reducesTo_S2048_S_d0 h_S_) main_v41 main_c_15
  let main_v43 : IVec S_ 1 := andi main_v38 main_v42
  let main_v44 : FVec F S2048 .f32 := Host.absf main_arg9
  let main_cst_16 : FVec F S_ .f32 := constant S_ .f32 0x7F800000#32
  let main_v45 : FVec F S2048 .f32 := broadcastInDim S2048 ![] bcast_S_S2048 main_cst_16
  let main_v46 : IVec S2048 1 := cmpf .olt main_v44 main_v45
  let main_c_17 : IVec S_ 1 := constantI S_ 1 1#1
  let main_v47 : IVec S_ 1 := (fun x v => Host.reduce IntOp.andi x v reducesTo_S2048_S_d0 h_S_) main_v46 main_c_17
  let main_v48 : IVec S_ 1 := andi main_v43 main_v47
  main_v48

def fn_part1 {F : FTy → Type} [FloatOps F] (main_arg4 : FVec F S4096x16 .f32) (main_arg5 : FVec F S4096 .f32) (main_arg6 : FVec F S4096 .f32) (main_arg7 : FVec F S2048x4096 .f32) (main_arg8 : FVec F S2048 .f32) (main_arg9 : FVec F S2048 .f32) (main_v13 : IVec S_ 1) (main_v16 : IVec S33x4096 1) : IVec S_ 1 :=
  let main_c_5 : IVec S_ 1 := constantI S_ 1 1#1
  let main_v17 : IVec S_ 1 := (fun x v => Host.reduce IntOp.andi x v reducesTo_S33x4096_S_d0_1 h_S_) main_v16 main_c_5
  let main_v18 : IVec S_ 1 := andi main_v13 main_v17
  let main_v19 : FVec F S4096x16 .f32 := Host.absf main_arg4
  let main_cst_6 : FVec F S_ .f32 := constant S_ .f32 0x7F800000#32
  let main_v20 : FVec F S4096x16 .f32 := broadcastInDim S4096x16 ![] bcast_S_S4096x16 main_cst_6
  let main_v21 : IVec S4096x16 1 := cmpf .olt main_v19 main_v20
  let main_c_7 : IVec S_ 1 := constantI S_ 1 1#1
  let main_v22 : IVec S_ 1 := (fun x v => Host.reduce IntOp.andi x v reducesTo_S4096x16_S_d0_1 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  fn_part2 (F := F) main_arg7 main_arg8 main_arg9 main_v33

def fn {F : FTy → Type} [FloatOps F] (main_arg0 : FVec F S2048x2048 .f32) (main_arg1 : FVec F S2048x4096x16 .f32) (main_arg2 : FVec F S8192x2048 .f32) (main_arg3 : FVec F S33x4096 .f32) (main_arg4 : FVec F S4096x16 .f32) (main_arg5 : FVec F S4096 .f32) (main_arg6 : FVec F S4096 .f32) (main_arg7 : FVec F S2048x4096 .f32) (main_arg8 : FVec F S2048 .f32) (main_arg9 : FVec F S2048 .f32) : IVec S_ 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_c : IVec S_ 1 := constantI S_ 1 1#1
  let main_v3 : IVec S_ 1 := (fun x v => Host.reduce IntOp.andi x v reducesTo_S2048x2048_S_d0_1 h_S_) main_v2 main_c
  let main_v4 : FVec F S2048x4096x16 .f32 := Host.absf main_arg1
  let main_cst_0 : FVec F S_ .f32 := constant S_ .f32 0x7F800000#32
  let main_v5 : FVec F S2048x4096x16 .f32 := broadcastInDim S2048x4096x16 ![] bcast_S_S2048x4096x16 main_cst_0
  let main_v6 : IVec S2048x4096x16 1 := cmpf .olt main_v4 main_v5
  let main_c_1 : IVec S_ 1 := constantI S_ 1 1#1
  let main_v7 : IVec S_ 1 := (fun x v => Host.reduce IntOp.andi x v reducesTo_S2048x4096x16_S_d0_1_2 h_S_) main_v6 main_c_1
  let main_v8 : IVec S_ 1 := andi main_v3 main_v7
  let main_v9 : FVec F S8192x2048 .f32 := Host.absf main_arg2
  let main_cst_2 : FVec F S_ .f32 := constant S_ .f32 0x7F800000#32
  let main_v10 : FVec F S8192x2048 .f32 := broadcastInDim S8192x2048 ![] bcast_S_S8192x2048 main_cst_2
  let main_v11 : IVec S8192x2048 1 := cmpf .olt main_v9 main_v10
  let main_c_3 : IVec S_ 1 := constantI S_ 1 1#1
  let main_v12 : IVec S_ 1 := (fun x v => Host.reduce IntOp.andi x v reducesTo_S8192x2048_S_d0_1 h_S_) main_v11 main_c_3
  let main_v13 : IVec S_ 1 := andi main_v8 main_v12
  let main_v14 : FVec F S33x4096 .f32 := Host.absf main_arg3
  let main_cst_4 : FVec F S_ .f32 := constant S_ .f32 0x7F800000#32
  let main_v15 : FVec F S33x4096 .f32 := broadcastInDim S33x4096 ![] bcast_S_S33x4096 main_cst_4
  let main_v16 : IVec S33x4096 1 := cmpf .olt main_v14 main_v15
  fn_part1 (F := F) main_arg4 main_arg5 main_arg6 main_arg7 main_arg8 main_arg9 main_v13 main_v16
-- ==== Kernel.lean ====
abbrev S2048x2048 : Shape := ⟨2, ![2048, 2048]⟩
abbrev S2048x4096x16 : Shape := ⟨3, ![2048, 4096, 16]⟩
abbrev S8192x2048 : Shape := ⟨2, ![8192, 2048]⟩
abbrev S33x4096 : Shape := ⟨2, ![33, 4096]⟩
abbrev S4096x16 : Shape := ⟨2, ![4096, 16]⟩
abbrev S4096 : Shape := ⟨1, ![4096]⟩
abbrev S2048x4096 : Shape := ⟨2, ![2048, 4096]⟩
abbrev S2048 : Shape := ⟨1, ![2048]⟩
abbrev S4096x2048 : Shape := ⟨2, ![4096, 2048]⟩
abbrev S1x2048 : Shape := ⟨2, ![1, 2048]⟩
abbrev S1x4096 : Shape := ⟨2, ![1, 4096]⟩
abbrev S2048x33 : Shape := ⟨2, ![2048, 33]⟩
abbrev S64x2048 : Shape := ⟨2, ![64, 2048]⟩
abbrev S64x4096 : Shape := ⟨2, ![64, 4096]⟩
abbrev S64x33 : Shape := ⟨2, ![64, 33]⟩
abbrev S64 : Shape := ⟨1, ![64]⟩
abbrev S64x1 : Shape := ⟨2, ![64, 1]⟩
abbrev S64x128 : Shape := ⟨2, ![64, 128]⟩
abbrev S64x128x16 : Shape := ⟨3, ![64, 128, 16]⟩
abbrev S128x16 : Shape := ⟨2, ![128, 16]⟩
abbrev S1x128 : Shape := ⟨2, ![1, 128]⟩
abbrev S64x16 : Shape := ⟨2, ![64, 16]⟩
abbrev S64x128x1 : Shape := ⟨3, ![64, 128, 1]⟩
abbrev S1x128x16 : Shape := ⟨3, ![1, 128, 16]⟩
abbrev S64x1x16 : Shape := ⟨3, ![64, 1, 16]⟩
abbrev S256x4096 : Shape := ⟨2, ![256, 4096]⟩
abbrev S512x4096 : Shape := ⟨2, ![512, 4096]⟩
abbrev S256x512 : Shape := ⟨2, ![256, 512]⟩

abbrev nBuf : Space → Nat
  | .hbm => 27
  | .vmem => 39
  | .smem => 0
  | _ => 0

abbrev bufTy : (tb : Table) → Fin (tcTables nBuf tb) → BufTy
  | .hbm, ⟨0, _⟩ => ⟨S2048x2048, .f32⟩
  | .hbm, ⟨1, _⟩ => ⟨S2048x4096x16, .f32⟩
  | .hbm, ⟨2, _⟩ => ⟨S8192x2048, .f32⟩
  | .hbm, ⟨3, _⟩ => ⟨S33x4096, .f32⟩
  | .hbm, ⟨4, _⟩ => ⟨S4096x16, .f32⟩
  | .hbm, ⟨5, _⟩ => ⟨S4096, .f32⟩
  | .hbm, ⟨6, _⟩ => ⟨S4096, .f32⟩
  | .hbm, ⟨7, _⟩ => ⟨S2048x4096, .f32⟩
  | .hbm, ⟨8, _⟩ => ⟨S2048, .f32⟩
  | .hbm, ⟨9, _⟩ => ⟨S2048, .f32⟩
  | .hbm, ⟨10, _⟩ => ⟨S4096x2048, .f32⟩
  | .hbm, ⟨11, _⟩ => ⟨S4096x2048, .f32⟩
  | .hbm, ⟨12, _⟩ => ⟨S4096x2048, .bf16⟩
  | .hbm, ⟨13, _⟩ => ⟨S4096x2048, .bf16⟩
  | .hbm, ⟨14, _⟩ => ⟨S33x4096, .bf16⟩
  | .hbm, ⟨15, _⟩ => ⟨S2048x4096, .bf16⟩
  | .hbm, ⟨16, _⟩ => ⟨S1x2048, .f32⟩
  | .hbm, ⟨17, _⟩ => ⟨S1x2048, .f32⟩
  | .hbm, ⟨18, _⟩ => ⟨S4096x16, .f32⟩
  | .hbm, ⟨19, _⟩ => ⟨S1x4096, .f32⟩
  | .hbm, ⟨20, _⟩ => ⟨S1x4096, .f32⟩
  | .hbm, ⟨21, _⟩ => ⟨S2048x4096, .f32⟩
  | .hbm, ⟨22, _⟩ => ⟨S2048x4096, .f32⟩
  | .hbm, ⟨23, _⟩ => ⟨S2048x33, .f32⟩
  | .hbm, ⟨24, _⟩ => ⟨S2048x4096x16, .f32⟩
  | .hbm, ⟨25, _⟩ => ⟨S2048x4096, .f32⟩
  | .hbm, ⟨26, _⟩ => ⟨S2048x2048, .f32⟩
  | .local _ .vmem, ⟨0, _⟩ => ⟨S64x2048, .f32⟩
  | .local _ .vmem, ⟨1, _⟩ => ⟨S64x2048, .f32⟩
  | .local _ .vmem, ⟨2, _⟩ => ⟨S1x2048, .f32⟩
  | .local _ .vmem, ⟨3, _⟩ => ⟨S1x2048, .f32⟩
  | .local _ .vmem, ⟨4, _⟩ => ⟨S4096x2048, .bf16⟩
  | .local _ .vmem, ⟨5, _⟩ => ⟨S4096x2048, .bf16⟩
  | .local _ .vmem, ⟨6, _⟩ => ⟨S33x4096, .bf16⟩
  | .local _ .vmem, ⟨7, _⟩ => ⟨S64x4096, .f32⟩
  | .local _ .vmem, ⟨8, _⟩ => ⟨S64x4096, .f32⟩
  | .local _ .vmem, ⟨9, _⟩ => ⟨S64x4096, .f32⟩
  | .local _ .vmem, ⟨10, _⟩ => ⟨S64x4096, .f32⟩
  | .local _ .vmem, ⟨11, _⟩ => ⟨S64x33, .f32⟩
  | .local _ .vmem, ⟨12, _⟩ => ⟨S64x33, .f32⟩
  | .local _ .vmem, ⟨13, _⟩ => ⟨S64x128, .f32⟩
  | .local _ .vmem, ⟨14, _⟩ => ⟨S64x128, .f32⟩
  | .local _ .vmem, ⟨15, _⟩ => ⟨S64x128, .f32⟩
  | .local _ .vmem, ⟨16, _⟩ => ⟨S64x128, .f32⟩
  | .local _ .vmem, ⟨17, _⟩ => ⟨S64x33, .f32⟩
  | .local _ .vmem, ⟨18, _⟩ => ⟨S64x33, .f32⟩
  | .local _ .vmem, ⟨19, _⟩ => ⟨S64x128x16, .f32⟩
  | .local _ .vmem, ⟨20, _⟩ => ⟨S64x128x16, .f32⟩
  | .local _ .vmem, ⟨21, _⟩ => ⟨S128x16, .f32⟩
  | .local _ .vmem, ⟨22, _⟩ => ⟨S128x16, .f32⟩
  | .local _ .vmem, ⟨23, _⟩ => ⟨S1x128, .f32⟩
  | .local _ .vmem, ⟨24, _⟩ => ⟨S1x128, .f32⟩
  | .local _ .vmem, ⟨25, _⟩ => ⟨S1x128, .f32⟩
  | .local _ .vmem, ⟨26, _⟩ => ⟨S1x128, .f32⟩
  | .local _ .vmem, ⟨27, _⟩ => ⟨S64x128x16, .f32⟩
  | .local _ .vmem, ⟨28, _⟩ => ⟨S64x128x16, .f32⟩
  | .local _ .vmem, ⟨29, _⟩ => ⟨S64x128, .f32⟩
  | .local _ .vmem, ⟨30, _⟩ => ⟨S64x128, .f32⟩
  | .local _ .vmem, ⟨31, _⟩ => ⟨S256x4096, .f32⟩
  | .local _ .vmem, ⟨32, _⟩ => ⟨S256x4096, .f32⟩
  | .local _ .vmem, ⟨33, _⟩ => ⟨S512x4096, .bf16⟩
  | .local _ .vmem, ⟨34, _⟩ => ⟨S512x4096, .bf16⟩
  | .local _ .vmem, ⟨35, _⟩ => ⟨S256x512, .f32⟩
  | .local _ .vmem, ⟨36, _⟩ => ⟨S256x512, .f32⟩
  | .local _ .vmem, ⟨37, _⟩ => ⟨S256x512, .f32⟩
  | .local _ .vmem, ⟨38, _⟩ => ⟨S256x512, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11_0 : Ref sig .tc := ⟨.hbm, 21, rfl⟩
abbrev main_v11_1 : Ref sig .tc := ⟨.hbm, 22, rfl⟩
abbrev main_v11_2 : Ref sig .tc := ⟨.hbm, 23, rfl⟩
abbrev main_v12_0 : Ref sig .tc := ⟨.hbm, 24, rfl⟩
abbrev main_v12_1 : Ref sig .tc := ⟨.hbm, 25, rfl⟩
abbrev main_v13 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg3_1 : Ref sig .tc := ⟨.vmem, 20, rfl⟩
abbrev cc1_stg4_0 : Ref sig .tc := ⟨.vmem, 21, rfl⟩
abbrev cc1_stg4_1 : Ref sig .tc := ⟨.vmem, 22, rfl⟩
abbrev cc1_stg5_0 : Ref sig .tc := ⟨.vmem, 23, rfl⟩
abbrev cc1_stg5_1 : Ref sig .tc := ⟨.vmem, 24, rfl⟩
abbrev cc1_stg6_0 : Ref sig .tc := ⟨.vmem, 25, rfl⟩
abbrev cc1_stg6_1 : Ref sig .tc := ⟨.vmem, 26, rfl⟩
abbrev cc1_stg7_0 : Ref sig .tc := ⟨.vmem, 27, rfl⟩
abbrev cc1_stg7_1 : Ref sig .tc := ⟨.vmem, 28, rfl⟩
abbrev cc1_stg8_0 : Ref sig .tc := ⟨.vmem, 29, rfl⟩
abbrev cc1_stg8_1 : Ref sig .tc := ⟨.vmem, 30, rfl⟩
abbrev cc2_stg0_0 : Ref sig .tc := ⟨.vmem, 31, rfl⟩
abbrev cc2_stg0_1 : Ref sig .tc := ⟨.vmem, 32, rfl⟩
abbrev cc2_stg1_0 : Ref sig .tc := ⟨.vmem, 33, rfl⟩
abbrev cc2_stg1_1 : Ref sig .tc := ⟨.vmem, 34, rfl⟩
abbrev cc2_stg2_0 : Ref sig .tc := ⟨.vmem, 35, rfl⟩
abbrev cc2_stg2_1 : Ref sig .tc := ⟨.vmem, 36, rfl⟩
abbrev cc2_stg3_0 : Ref sig .tc := ⟨.vmem, 37, rfl⟩
abbrev cc2_stg3_1 : Ref sig .tc := ⟨.vmem, 38, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem3_1 : DmaSem sig := 20
abbrev cc1_sem4_0 : DmaSem sig := 21
abbrev cc1_sem4_1 : DmaSem sig := 22
abbrev cc1_sem5_0 : DmaSem sig := 23
abbrev cc1_sem5_1 : DmaSem sig := 24
abbrev cc1_sem6_0 : DmaSem sig := 25
abbrev cc1_sem6_1 : DmaSem sig := 26
abbrev cc1_sem7_0 : DmaSem sig := 27
abbrev cc1_sem7_1 : DmaSem sig := 28
abbrev cc1_sem8_0 : DmaSem sig := 29
abbrev cc1_sem8_1 : DmaSem sig := 30
abbrev cc2_sem0_0 : DmaSem sig := 31
abbrev cc2_sem0_1 : DmaSem sig := 32
abbrev cc2_sem1_0 : DmaSem sig := 33
abbrev cc2_sem1_1 : DmaSem sig := 34
abbrev cc2_sem2_0 : DmaSem sig := 35
abbrev cc2_sem2_1 : DmaSem sig := 36
abbrev cc2_sem3_0 : DmaSem sig := 37
abbrev cc2_sem3_1 : DmaSem sig := 38

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S33x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S64x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x33 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨2, ![32, 32], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S64x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S64x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S64x33 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S64x128x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S128x16 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 2 → Memref sig .tc .vmem S1x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, true]

abbrev stage1_6 : Fin 2 → Memref sig .tc .vmem S1x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![false, true]

abbrev stage1_7 : Fin 2 → Memref sig .tc .vmem S64x128x16 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S64x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev grid2 : Pipeline.Grid := ⟨2, ![8, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S256x4096 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S512x4096 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S256x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S256x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

class Facts₀ : Prop where
  slices_S8192x2048_S4096x2048_0_0 : S8192x2048.Slices ![0, 0] S4096x2048
  slices_S8192x2048_S4096x2048_4096_0 : S8192x2048.Slices ![4096, 0] S4096x2048
  bitsLt_bf16_f32 : FTy.bits .bf16 < FTy.bits .f32
  shapeCasts_S2048_S1x2048 : S2048.ShapeCasts S1x2048
  shapeCasts_S4096_S1x4096 : S4096.ShapeCasts S1x4096
  inb_S64x2048_S64x2048_0_0 : ∀ a, (![0, 0] : Fin 2 → Nat) a + S64x2048.size a ≤ S64x2048.size a
  h_S64x2048 : 0 < S64x2048.numel
  reduces_S64x2048_S64 : S64x2048.Reduces [1] S64
  shapeCasts_S64_S64x1 : S64.ShapeCasts S64x1
  broadcasts_S64x1_S64x2048 : S64x1.Broadcasts S64x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S64x2048 : S1x2048.Broadcasts S64x2048
  inb_S4096x2048_S4096x2048_0_0 : ∀ a, (![0, 0] : Fin 2 → Nat) a + S4096x2048.size a ≤ S4096x2048.size a
  h_S4096x2048 : 0 < S4096x2048.numel
  shapeCasts_S4096x2048_S4096x2048 : S4096x2048.ShapeCasts S4096x2048
  inb_S64x4096_S64x4096_0_0 : ∀ a, (![0, 0] : Fin 2 → Nat) a + S64x4096.size a ≤ S64x4096.size a
  h_S64x4096 : 0 < S64x4096.numel
  inb_S33x4096_S33x4096_0_0 : ∀ a, (![0, 0] : Fin 2 → Nat) a + S33x4096.size a ≤ S33x4096.size a
  h_S33x4096 : 0 < S33x4096.numel
  shapeCasts_S33x4096_S33x4096 : S33x4096.ShapeCasts S33x4096
  inb_S64x33_S64x33_0_0 : ∀ a, (![0, 0] : Fin 2 → Nat) a + S64x33.size a ≤ S64x33.size a
  h_S64x33 : 0 < S64x33.numel
  inb_S64x128_S64x128_0_0 : ∀ a, (![0, 0] : Fin 2 → Nat) a + S64x128.size a ≤ S64x128.size a
  h_S64x128 : 0 < S64x128.numel
  shapeCasts_S64x128_S64x128 : S64x128.ShapeCasts S64x128
  shapeCasts_S64x33_S64x33 : S64x33.ShapeCasts S64x33
  inb_S64x128x16_S64x128x16_0_0_0 : ∀ a, (![0, 0, 0] : Fin 3 → Nat) a + S64x128x16.size a ≤ S64x128x16.size a
  h_S64x128x16 : 0 < S64x128x16.numel
  inb_S128x16_S128x16_0_0 : ∀ a, (![0, 0] : Fin 2 → Nat) a + S128x16.size a ≤ S128x16.size a
  h_S128x16 : 0 < S128x16.numel
  shapeCasts_S128x16_S128x16 : S128x16.ShapeCasts S128x16
  inb_S1x128_S1x128_0_0 : ∀ a, (![0, 0] : Fin 2 → Nat) a + S1x128.size a ≤ S1x128.size a
  h_S1x128 : 0 < S1x128.numel
  shapeCasts_S1x128_S1x128 : S1x128.ShapeCasts S1x128
  slices_S64x33_o0_0_S64x16 : S64x33.Slices ![0, 0] S64x16
  slices_S64x33_o0_16_S64x16 : S64x33.Slices ![0, 16] S64x16
  slices_S64x33_o0_32_S64x1 : S64x33.Slices ![0, 32] S64x1
  broadcasts_S64x1_S64x128 : S64x1.Broadcasts S64x128
  broadcasts_S1x128_S64x128 : S1x128.Broadcasts S64x128
  shapeCasts_S64x128_S64x128x1 : S64x128.ShapeCasts S64x128x1
  shapeCasts_S128x16_S1x128x16 : S128x16.ShapeCasts S1x128x16
  broadcasts_S64x128x1_S64x128x16 : S64x128x1.Broadcasts S64x128x16
  broadcasts_S1x128x16_S64x128x16 : S1x128x16.Broadcasts S64x128x16
  shapeCasts_S64x16_S64x1x16 : S64x16.ShapeCasts S64x1x16
  broadcasts_S64x1x16_S64x128x16 : S64x1x16.Broadcasts S64x128x16
  reduces_S64x128x16_S64x128 : S64x128x16.Reduces [2] S64x128
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S256x512_S256x512_0_0 : ∀ a, (![0, 0] : Fin 2 → Nat) a + S256x512.size a ≤ S256x512.size a
  h_S256x512 : 0 < S256x512.numel
  dot_S64x2048_S4096x2048_S64x4096_1_1_0_0_n_n_wf : DotDims.WF S64x2048 S4096x2048 S64x4096 [1] [1] [0] [0] [] []
  dot_S64x4096_S33x4096_S64x33_1_1_0_0_n_n_wf : DotDims.WF S64x4096 S33x4096 S64x33 [1] [1] [0] [0] [] []
  dot_S256x4096_S512x4096_S256x512_1_1_0_0_n_n_wf : DotDims.WF S256x4096 S512x4096 S256x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x2048.size a ≤ S2048x2048.size a
  hwx0_0 : ∀ i : grid0.Coords, EltTy.bits .f32 = 32 ∨ (Rect.block (s := S2048x2048) S64x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x2048.size a ≤ S1x2048.size a
  hwx0_1 : ∀ i : grid0.Coords, EltTy.bits .f32 = 32 ∨ (Rect.block (s := S1x2048) S1x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x2048.size a ≤ S4096x2048.size a
  hwx0_3 : ∀ i : grid0.Coords, EltTy.bits .bf16 = 32 ∨ (Rect.block (s := S4096x2048) S4096x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4096x2048.size a ≤ S4096x2048.size a
  hwx0_4 : ∀ i : grid0.Coords, EltTy.bits .bf16 = 32 ∨ (Rect.block (s := S4096x2048) S4096x2048.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S33x4096.size a ≤ S33x4096.size a
  hwx0_5 : ∀ i : grid0.Coords, EltTy.bits .bf16 = 32 ∨ (Rect.block (s := S33x4096) S33x4096.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S64x4096.size a ≤ S2048x4096.size a
  hwx0_6 : ∀ i : grid0.Coords, EltTy.bits .f32 = 32 ∨ (Rect.block (s := S2048x4096) S64x4096.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S64x4096.size a ≤ S2048x4096.size a
  hwx0_7 : ∀ i : grid0.Coords, EltTy.bits .f32 = 32 ∨ (Rect.block (s := S2048x4096) S64x4096.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S64x33.size a ≤ S2048x33.size a
  hwx0_8 : ∀ i : grid0.Coords, EltTy.bits .f32 = 32 ∨ (Rect.block (s := S2048x33) S64x33.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S64x128.size a ≤ S2048x4096.size a
  hwx1_0 : ∀ i : grid1.Coords, EltTy.bits .f32 = 32 ∨ (Rect.block (s := S2048x4096) S64x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S64x128.size a ≤ S2048x4096.size a
  hwx1_1 : ∀ i : grid1.Coords, EltTy.bits .f32 = 32 ∨ (Rect.block (s := S2048x4096) S64x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S64x33.size a ≤ S2048x33.size a
  hwx1_2 : ∀ i : grid1.Coords, EltTy.bits .f32 = 32 ∨ (Rect.block (s := S2048x33) S64x33.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S64x128x16.size a ≤ S2048x4096x16.size a
  hwx1_3 : ∀ i : grid1.Coords, EltTy.bits .f32 = 32 ∨ (Rect.block (s := S2048x4096x16) S64x128x16.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S128x16.size a ≤ S4096x16.size a
  hwx1_4 : ∀ i : grid1.Coords, EltTy.bits .f32 = 32 ∨ (Rect.block (s := S4096x16) S128x16.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x4096.size a
  hwx1_5 : ∀ i : grid1.Coords, EltTy.bits .f32 = 32 ∨ (Rect.block (s := S1x4096) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x4096.size a
  hwx1_6 : ∀ i : grid1.Coords, EltTy.bits .f32 = 32 ∨ (Rect.block (s := S1x4096) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S64x128x16.size a ≤ S2048x4096x16.size a
  hwx1_7 : ∀ i : grid1.Coords, EltTy.bits .f32 = 32 ∨ (Rect.block (s := S2048x4096x16) S64x128x16.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S64x128.size a ≤ S2048x4096.size a
  hwx1_8 : ∀ i : grid1.Coords, EltTy.bits .f32 = 32 ∨ (Rect.block (s := S2048x4096) S64x128.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x4096.size a ≤ S2048x4096.size a
  hwx2_0 : ∀ i : grid2.Coords, EltTy.bits .f32 = 32 ∨ (Rect.block (s := S2048x4096) S256x4096.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x4096.size a ≤ S2048x4096.size a
  hwx2_1 : ∀ i : grid2.Coords, EltTy.bits .bf16 = 32 ∨ (Rect.block (s := S2048x4096) S512x4096.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S256x512.size a ≤ S2048x2048.size a
  hwx2_2 : ∀ i : grid2.Coords, EltTy.bits .f32 = 32 ∨ (Rect.block (s := S2048x2048) S256x512.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S256x512.size a ≤ S2048x2048.size a
  hwx2_3 : ∀ i : grid2.Coords, EltTy.bits .f32 = 32 ∨ (Rect.block (s := S2048x2048) S256x512.size (cc2_transform_3 i) (hinb2_3 i)).WholeWords (EltTy.packing .f32)

variable [Facts₀]

def dot_S64x2048_S4096x2048_S64x4096_1_1_0_0_n_n : DotDims S64x2048 S4096x2048 S64x4096 where
  lhsContracting := [1]
  rhsContracting := [1]
  lhsNonContracting := [0]
  rhsNonContracting := [0]
  lhsBatch := []
  rhsBatch := []
  wf := dot_S64x2048_S4096x2048_S64x4096_1_1_0_0_n_n_wf
def dot_S64x4096_S33x4096_S64x33_1_1_0_0_n_n : DotDims S64x4096 S33x4096 S64x33 where
  lhsContracting := [1]
  rhsContracting := [1]
  lhsNonContracting := [0]
  rhsNonContracting := [0]
  lhsBatch := []
  rhsBatch := []
  wf := dot_S64x4096_S33x4096_S64x33_1_1_0_0_n_n_wf
def dot_S256x4096_S512x4096_S256x512_1_1_0_0_n_n : DotDims S256x4096 S512x4096 S256x512 where
  lhsContracting := [1]
  rhsContracting := [1]
  lhsNonContracting := [0]
  rhsNonContracting := [0]
  lhsBatch := []
  rhsBatch := []
  wf := dot_S256x4096_S512x4096_S256x512_1_1_0_0_n_n_wf

abbrev win0_0 : Pipeline.Window sig grid0 :=
  Pipeline.Window.ofSpec (Memref.whole main_arg0) S64x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S1x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S4096x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S4096x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S33x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11_0) S64x4096.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v11_1) S64x4096.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v11_2) S64x33.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v11_0) S64x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11_1) S64x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11_2) S64x33.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg1) S64x128x16.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v8) S128x16.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v9) S1x128.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v10) S1x128.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_v12_0) S64x128x16.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v12_1) S64x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v12_1) S256x4096.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v5) S512x4096.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg0) S256x512.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v13) S256x512.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S2048x2048 : Shape := ⟨2, ![2048, 2048]⟩
abbrev S2048x4096x16 : Shape := ⟨3, ![2048, 4096, 16]⟩
abbrev S8192x2048 : Shape := ⟨2, ![8192, 2048]⟩
abbrev S33x4096 : Shape := ⟨2, ![33, 4096]⟩
abbrev S4096x16 : Shape := ⟨2, ![4096, 16]⟩
abbrev S4096 : Shape := ⟨1, ![4096]⟩
abbrev S2048x4096 : Shape := ⟨2, ![2048, 4096]⟩
abbrev S2048 : Shape := ⟨1, ![2048]⟩
abbrev S_ : Shape := ⟨0, ![]⟩
abbrev S2048x1 : Shape := ⟨2, ![2048, 1]⟩
abbrev S1x2048 : Shape := ⟨2, ![1, 2048]⟩
abbrev S2048x8192 : Shape := ⟨2, ![2048, 8192]⟩
abbrev S4096x33 : Shape := ⟨2, ![4096, 33]⟩
abbrev S2048x33 : Shape := ⟨2, ![2048, 33]⟩
abbrev S2048x16 : Shape := ⟨2, ![2048, 16]⟩
abbrev S1x4096 : Shape := ⟨2, ![1, 4096]⟩
abbrev S2048x4096x1 : Shape := ⟨3, ![2048, 4096, 1]⟩
abbrev S1x4096x16 : Shape := ⟨3, ![1, 4096, 16]⟩
abbrev S2048x1x16 : Shape := ⟨3, ![2048, 1, 16]⟩
abbrev S4096x2048 : Shape := ⟨2, ![4096, 2048]⟩

abbrev nBuf : Space → Nat
  | .hbm => 108
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x4096x16, .f32⟩
  | .hbm, ⟨2, _⟩ => ⟨S8192x2048, .f32⟩
  | .hbm, ⟨3, _⟩ => ⟨S33x4096, .f32⟩
  | .hbm, ⟨4, _⟩ => ⟨S4096x16, .f32⟩
  | .hbm, ⟨5, _⟩ => ⟨S4096, .f32⟩
  | .hbm, ⟨6, _⟩ => ⟨S4096, .f32⟩
  | .hbm, ⟨7, _⟩ => ⟨S2048x4096, .f32⟩
  | .hbm, ⟨8, _⟩ => ⟨S2048, .f32⟩
  | .hbm, ⟨9, _⟩ => ⟨S2048, .f32⟩
  | .hbm, ⟨10, _⟩ => ⟨S_, .f32⟩
  | .hbm, ⟨11, _⟩ => ⟨S2048, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S_, .f32⟩
  | .hbm, ⟨20, _⟩ => ⟨S2048, .f32⟩
  | .hbm, ⟨21, _⟩ => ⟨S2048x1, .f32⟩
  | .hbm, ⟨22, _⟩ => ⟨S_, .f32⟩
  | .hbm, ⟨23, _⟩ => ⟨S2048x1, .f32⟩
  | .hbm, ⟨24, _⟩ => ⟨S2048x1, .f32⟩
  | .hbm, ⟨25, _⟩ => ⟨S2048x2048, .f32⟩
  | .hbm, ⟨26, _⟩ => ⟨S2048x2048, .f32⟩
  | .hbm, ⟨27, _⟩ => ⟨S_, .f32⟩
  | .hbm, ⟨28, _⟩ => ⟨S2048x1, .f32⟩
  | .hbm, ⟨29, _⟩ => ⟨S2048x1, .f32⟩
  | .hbm, ⟨30, _⟩ => ⟨S2048x1, .f32⟩
  | .hbm, ⟨31, _⟩ => ⟨S2048x2048, .f32⟩
  | .hbm, ⟨32, _⟩ => ⟨S2048x2048, .f32⟩
  | .hbm, ⟨33, _⟩ => ⟨S1x2048, .f32⟩
  | .hbm, ⟨34, _⟩ => ⟨S2048x2048, .f32⟩
  | .hbm, ⟨35, _⟩ => ⟨S2048x2048, .f32⟩
  | .hbm, ⟨36, _⟩ => ⟨S1x2048, .f32⟩
  | .hbm, ⟨37, _⟩ => ⟨S2048x2048, .f32⟩
  | .hbm, ⟨38, _⟩ => ⟨S2048x2048, .f32⟩
  | .hbm, ⟨39, _⟩ => ⟨S2048x8192, .f32⟩
  | .hbm, ⟨40, _⟩ => ⟨S2048x8192, .f32⟩
  | .hbm, ⟨41, _⟩ => ⟨S2048x4096, .f32⟩
  | .hbm, ⟨42, _⟩ => ⟨S2048x4096, .f32⟩
  | .hbm, ⟨43, _⟩ => ⟨S4096x33, .f32⟩
  | .hbm, ⟨44, _⟩ => ⟨S2048x33, .f32⟩
  | .hbm, ⟨45, _⟩ => ⟨S2048x16, .f32⟩
  | .hbm, ⟨46, _⟩ => ⟨S2048x16, .f32⟩
  | .hbm, ⟨47, _⟩ => ⟨S2048x1, .f32⟩
  | .hbm, ⟨48, _⟩ => ⟨S2048, .f32⟩
  | .hbm, ⟨49, _⟩ => ⟨S2048x1, .f32⟩
  | .hbm, ⟨50, _⟩ => ⟨S1x4096, .f32⟩
  | .hbm, ⟨51, _⟩ => ⟨S2048x4096, .f32⟩
  | .hbm, ⟨52, _⟩ => ⟨S2048x4096, .f32⟩
  | .hbm, ⟨53, _⟩ => ⟨S2048x4096, .f32⟩
  | .hbm, ⟨54, _⟩ => ⟨S_, .f32⟩
  | .hbm, ⟨55, _⟩ => ⟨S2048x4096, .f32⟩
  | .hbm, ⟨56, _⟩ => ⟨S2048x4096, .f32⟩
  | .hbm, ⟨57, _⟩ => ⟨S2048x4096, .f32⟩
  | .hbm, ⟨58, _⟩ => ⟨S2048x4096, .f32⟩
  | .hbm, ⟨59, _⟩ => ⟨S2048x4096, .i1⟩
  | .hbm, ⟨60, _⟩ => ⟨S2048x4096, .f32⟩
  | .hbm, ⟨61, _⟩ => ⟨S2048x4096, .f32⟩
  | .hbm, ⟨62, _⟩ => ⟨S2048x4096, .f32⟩
  | .hbm, ⟨63, _⟩ => ⟨S2048x4096, .f32⟩
  | .hbm, ⟨64, _⟩ => ⟨S2048x4096, .f32⟩
  | .hbm, ⟨65, _⟩ => ⟨S2048x4096, .f32⟩
  | .hbm, ⟨66, _⟩ => ⟨S2048x4096, .f32⟩
  | .hbm, ⟨67, _⟩ => ⟨S2048x4096, .f32⟩
  | .hbm, ⟨68, _⟩ => ⟨S4096x16, .f32⟩
  | .hbm, ⟨69, _⟩ => ⟨S2048x4096x1, .f32⟩
  | .hbm, ⟨70, _⟩ => ⟨S2048x4096x1, .f32⟩
  | .hbm, ⟨71, _⟩ => ⟨S1x4096x16, .f32⟩
  | .hbm, ⟨72, _⟩ => ⟨S2048x4096x16, .f32⟩
  | .hbm, ⟨73, _⟩ => ⟨S2048x4096x16, .f32⟩
  | .hbm, ⟨74, _⟩ => ⟨S2048x4096x16, .f32⟩
  | .hbm, ⟨75, _⟩ => ⟨S2048x4096x16, .f32⟩
  | .hbm, ⟨76, _⟩ => ⟨S2048x4096x1, .f32⟩
  | .hbm, ⟨77, _⟩ => ⟨S2048x1x16, .f32⟩
  | .hbm, ⟨78, _⟩ => ⟨S2048x4096x16, .f32⟩
  | .hbm, ⟨79, _⟩ => ⟨S2048x4096x16, .f32⟩
  | .hbm, ⟨80, _⟩ => ⟨S2048x4096x16, .f32⟩
  | .hbm, ⟨81, _⟩ => ⟨S2048x4096x16, .f32⟩
  | .hbm, ⟨82, _⟩ => ⟨S2048x4096x1, .f32⟩
  | .hbm, ⟨83, _⟩ => ⟨S2048x4096x16, .f32⟩
  | .hbm, ⟨84, _⟩ => ⟨S2048x4096x16, .f32⟩
  | .hbm, ⟨85, _⟩ => ⟨S2048x4096x16, .f32⟩
  | .hbm, ⟨86, _⟩ => ⟨S2048x1x16, .f32⟩
  | .hbm, ⟨87, _⟩ => ⟨S2048x4096x16, .f32⟩
  | .hbm, ⟨88, _⟩ => ⟨S2048x4096x16, .f32⟩
  | .hbm, ⟨89, _⟩ => ⟨S_, .f32⟩
  | .hbm, ⟨90, _⟩ => ⟨S2048x4096, .f32⟩
  | .hbm, ⟨91, _⟩ => ⟨S1x4096, .f32⟩
  | .hbm, ⟨92, _⟩ => ⟨S2048x4096, .f32⟩
  | .hbm, ⟨93, _⟩ => ⟨S2048x4096, .f32⟩
  | .hbm, ⟨94, _⟩ => ⟨S2048x4096, .f32⟩
  | .hbm, ⟨95, _⟩ => ⟨S2048x4096, .f32⟩
  | .hbm, ⟨96, _⟩ => ⟨S2048x4096, .f32⟩
  | .hbm, ⟨97, _⟩ => ⟨S_, .f32⟩
  | .hbm, ⟨98, _⟩ => ⟨S2048x4096, .f32⟩
  | .hbm, ⟨99, _⟩ => ⟨S2048x4096, .f32⟩
  | .hbm, ⟨100, _⟩ => ⟨S_, .f32⟩
  | .hbm, ⟨101, _⟩ => ⟨S2048x4096, .f32⟩
  | .hbm, ⟨102, _⟩ => ⟨S2048x4096, .f32⟩
  | .hbm, ⟨103, _⟩ => ⟨S2048x4096, .f32⟩
  | .hbm, ⟨104, _⟩ => ⟨S2048x4096, .f32⟩
  | .hbm, ⟨105, _⟩ => ⟨S4096x2048, .f32⟩
  | .hbm, ⟨106, _⟩ => ⟨S2048x2048, .f32⟩
  | .hbm, ⟨107, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_cst_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_cst_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_3 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_call0_cst : Ref sig .tc := ⟨.hbm, 54, rfl⟩
abbrev main_call0_v0 : Ref sig .tc := ⟨.hbm, 55, rfl⟩
abbrev main_call0_v1 : Ref sig .tc := ⟨.hbm, 56, rfl⟩
abbrev main_call0_v2 : Ref sig .tc := ⟨.hbm, 57, rfl⟩
abbrev main_call0_v3 : Ref sig .tc := ⟨.hbm, 58, rfl⟩
abbrev main_call0_v4 : Ref sig .tc := ⟨.hbm, 59, rfl⟩
abbrev main_call0_v5 : Ref sig .tc := ⟨.hbm, 60, rfl⟩
abbrev main_call0_v6 : Ref sig .tc := ⟨.hbm, 61, rfl⟩
abbrev main_call0_v7 : Ref sig .tc := ⟨.hbm, 62, rfl⟩
abbrev main_call0_v8 : Ref sig .tc := ⟨.hbm, 63, rfl⟩
abbrev main_call0_v9 : Ref sig .tc := ⟨.hbm, 64, rfl⟩
abbrev main_call0_v10 : Ref sig .tc := ⟨.hbm, 65, rfl⟩
abbrev main_call0_v11 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_cst_4 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_call1_v0 : Ref sig .tc := ⟨.hbm, 95, rfl⟩
abbrev main_call1_v1 : Ref sig .tc := ⟨.hbm, 96, rfl⟩
abbrev main_call1_cst : Ref sig .tc := ⟨.hbm, 97, rfl⟩
abbrev main_call1_v2 : Ref sig .tc := ⟨.hbm, 98, rfl⟩
abbrev main_call1_v3 : Ref sig .tc := ⟨.hbm, 99, rfl⟩
abbrev main_call1_cst_0 : Ref sig .tc := ⟨.hbm, 100, rfl⟩
abbrev main_call1_v4 : Ref sig .tc := ⟨.hbm, 101, rfl⟩
abbrev main_call1_v5 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩

abbrev nD : Nat := 1
abbrev τ : Topo := Topo.v7x

variable {F : FTy → Type} [FloatOps F]

class Facts₀ : Prop where
  reducesTo_S2048x2048_S2048_d1 : S2048x2048.ReducesTo [1] S2048
  h_S_ : 0 < S_.numel
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S2048x1_S2048x2048_0_1 : S2048x1.BroadcastsInDim S2048x2048 (![0, 1] : Fin 2 → Fin S2048x2048.rank)
  bcast_S2048_S1x2048_1 : S2048.BroadcastsInDim S1x2048 (![1] : Fin 1 → Fin S1x2048.rank)
  bcast_S1x2048_S2048x2048_0_1 : S1x2048.BroadcastsInDim S2048x2048 (![0, 1] : Fin 2 → Fin S2048x2048.rank)
  transposes_S8192x2048_S2048x8192_1_0 : S8192x2048.Transposes [1, 0] S2048x8192
  slices_S2048x8192_S2048x4096_0_0 : S2048x8192.Slices ![0, 0] S2048x4096
  slices_S2048x8192_S2048x4096_0_4096 : S2048x8192.Slices ![0, 4096] S2048x4096
  transposes_S33x4096_S4096x33_1_0 : S33x4096.Transposes [1, 0] S4096x33
  slices_S2048x33_S2048x16_0_0 : S2048x33.Slices ![0, 0] S2048x16
  slices_S2048x33_S2048x16_0_16 : S2048x33.Slices ![0, 16] S2048x16
  slices_S2048x33_S2048x1_0_32 : S2048x33.Slices ![0, 32] S2048x1
  shapeCasts_S2048x1_S2048 : S2048x1.ShapeCasts S2048
  bcast_S4096_S1x4096_1 : S4096.BroadcastsInDim S1x4096 (![1] : Fin 1 → Fin S1x4096.rank)
  bcast_S2048x1_S2048x4096_0_1 : S2048x1.BroadcastsInDim S2048x4096 (![0, 1] : Fin 2 → Fin S2048x4096.rank)
  bcast_S1x4096_S2048x4096_0_1 : S1x4096.BroadcastsInDim S2048x4096 (![0, 1] : Fin 2 → Fin S2048x4096.rank)
  bcast_S_S2048x4096 : S_.BroadcastsInDim S2048x4096 (![] : Fin 0 → Fin S2048x4096.rank)
  bcast_S2048x4096_S2048x4096x1_0_1 : S2048x4096.BroadcastsInDim S2048x4096x1 (![0, 1] : Fin 2 → Fin S2048x4096x1.rank)
  bcast_S4096x16_S1x4096x16_1_2 : S4096x16.BroadcastsInDim S1x4096x16 (![1, 2] : Fin 2 → Fin S1x4096x16.rank)
  bcast_S2048x4096x1_S2048x4096x16_0_1_2 : S2048x4096x1.BroadcastsInDim S2048x4096x16 (![0, 1, 2] : Fin 3 → Fin S2048x4096x16.rank)
  bcast_S1x4096x16_S2048x4096x16_0_1_2 : S1x4096x16.BroadcastsInDim S2048x4096x16 (![0, 1, 2] : Fin 3 → Fin S2048x4096x16.rank)
  bcast_S2048x16_S2048x1x16_0_2 : S2048x16.BroadcastsInDim S2048x1x16 (![0, 2] : Fin 2 → Fin S2048x1x16.rank)
  bcast_S2048x1x16_S2048x4096x16_0_1_2 : S2048x1x16.BroadcastsInDim S2048x4096x16 (![0, 1, 2] : Fin 3 → Fin S2048x4096x16.rank)
  reducesTo_S2048x4096x16_S2048x4096_d2 : S2048x4096x16.ReducesTo [2] S2048x4096
  transposes_S2048x4096_S4096x2048_1_0 : S2048x4096.Transposes [1, 0] S4096x2048
  dot_S2048x2048_S2048x8192_S2048x8192_1_0_0_1_n_n_wf : DotDims.WF S2048x2048 S2048x8192 S2048x8192 [1] [0] [0] [1] [] []
  dot_S2048x4096_S4096x33_S2048x33_1_0_0_1_n_n_wf : DotDims.WF S2048x4096 S4096x33 S2048x33 [1] [0] [0] [1] [] []
  dot_S2048x4096_S4096x2048_S2048x2048_1_0_0_1_n_n_wf : DotDims.WF S2048x4096 S4096x2048 S2048x2048 [1] [0] [0] [1] [] []

variable [Facts₀]

def dot_S2048x2048_S2048x8192_S2048x8192_1_0_0_1_n_n : DotDims S2048x2048 S2048x8192 S2048x8192 where
  lhsContracting := [1]
  rhsContracting := [0]
  lhsNonContracting := [0]
  rhsNonContracting := [1]
  lhsBatch := []
  rhsBatch := []
  wf := dot_S2048x2048_S2048x8192_S2048x8192_1_0_0_1_n_n_wf
def dot_S2048x4096_S4096x33_S2048x33_1_0_0_1_n_n : DotDims S2048x4096 S4096x33 S2048x33 where
  lhsContracting := [1]
  rhsContracting := [0]
  lhsNonContracting := [0]
  rhsNonContracting := [1]
  lhsBatch := []
  rhsBatch := []
  wf := dot_S2048x4096_S4096x33_S2048x33_1_0_0_1_n_n_wf
def dot_S2048x4096_S4096x2048_S2048x2048_1_0_0_1_n_n : DotDims S2048x4096 S4096x2048 S2048x2048 where
  lhsContracting := [1]
  rhsContracting := [0]
  lhsNonContracting := [0]
  rhsNonContracting := [1]
  lhsBatch := []
  rhsBatch := []
  wf := dot_S2048x4096_S4096x2048_S2048x2048_1_0_0_1_n_n_wf

class Facts : Prop extends Facts₀ where

variable [Facts]
-- ==== Proof.KernelRun.lean ====
/-
  The idealized kernel's run with its two results named.

  The program is a stretch of host operations followed by three accelerator regions.  The buffer contents at
  each boundary are a fold through the program: the launch memory, then the host operations' results, then
  after each region its output arrays at what the region's write-backs leave and every other buffer as it was.
  Every weakly fair execution terminates without a fault, and the final memory holds that fold's last stage at
  every buffer: in particular at the layer's output and at the new state, and the arguments end as launched.
-/
import proofs.«172780_j45122926412156_1_alg».proof.Proof.Gen.KernelIdeal.Frame

set_option maxRecDepth 16384

noncomputable section

namespace Cert.KernelIdeal.Named

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the output rows and the new state end at the last stage of the fold, the arguments as launched. -/
theorem run : θ_run defs (onTc (τ := τ) (main (F := F))) ⟨m, fun _ => 0, ρ⟩ (fun r => ∀ c : Dev nD,
      r.2.mem ((c.tc : Thread nD τ).loc main_v13) = W4 m ρ c (Proc.devRef .tc main_v13)
      ∧ r.2.mem ((c.tc : Thread nD τ).loc main_v12_0) = W4 m ρ c (Proc.devRef .tc main_v12_0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v13 (by decide)),
       h c _ (mem_uc main_v12_0 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c)⟩)

end Cert.KernelIdeal.Named

end
-- ==== Proof.HostReads.lean ====
/-
  The host operations before the first region, read at an index: the two halves of the input weight are row
  slices, the changes of float format are the identity at the exact values, the reshapes of a vector to a
  one-row matrix keep the entries, and the decay matrix is the exponential of its logarithm, entry by entry.
-/
import proofs.«172780_j45122926412156_1_alg».proof.Proof.Gen.KernelIdeal.Frame
import Idealize.ShloMosaic.Lib.StableHlo.Run
import Idealize.ShloMosaic.Lib.ValueIdx
import Idealize.ShloMosaic.Lib.ValueLayout
import Idealize.ShloMosaic.Lib.Pipeline.Value

noncomputable section

open Idealize.ShloMosaic Idealize.ShloMosaic.TcCoe Idealize.SL.Sem Idealize.ShloMosaic.StableHlo Idealize.ShloMosaic.ValueIdx
open Cert.KernelIdeal Cert.KernelIdeal.Gen

namespace Cert.KernelIdeal.HostReads

variable (m : (ℓ : Loc nD τ sig) → Buf (Elt Ideal) ℓ) (ρ : Dev nD → PrngReg)

/-- The input rows reach the first region untouched. -/
theorem x_read (c : Dev nD) : (V1 m ρ c main_arg0 : S2048x2048.Idx → EReal) = m ((c : Thread nD τ).loc main_arg0) := by
  dsimp only [V1, W1, hostOps0]; after_results
/-- So does the old state. -/
theorem h_read (c : Dev nD) : (V1 m ρ c main_arg1 : S2048x4096x16.Idx → EReal) = m ((c : Thread nD τ).loc main_arg1) := by
  dsimp only [V1, W1, hostOps0]; after_results

/-- The first half of the input weight: rows 0 … 4095. -/
theorem wx_read (c : Dev nD) (j : Fin 4096) (k : Fin 2048) :
    (V1 m ρ c main_v2 : S4096x2048.Idx → EReal) (ix2 j k)
      = (m ((c : Thread nD τ).loc main_arg2) : S8192x2048.Idx → EReal) (ix2 ⟨j.val, by omega⟩ k) := by
  have e : @Eq (S4096x2048.Idx → EReal) (V1 m ρ c main_v2)
      (truncf (F := Ideal) (φ := .f32) .bf16 (extractStridedSlice S4096x2048 ![0, 0] (m ((c : Thread nD τ).loc main_arg2) : S8192x2048.Idx → EReal) slices_S8192x2048_S4096x2048_0_0) bitsLt_bf16_f32) := by
    dsimp only [V1, W1, hostOps0]; after_results
  rw [e]
  refine extractStridedSlice_apply (α := EReal) (s := S8192x2048) (t := S4096x2048) ![0, 0]
    (m ((c : Thread nD τ).loc main_arg2)) slices_S8192x2048_S4096x2048_0_0 (ix2 j k) (ix2 ⟨j.val, by omega⟩ k) (fun a => ?_)
  match a with
  | ⟨0, _⟩ => show j.val = 0 + j.val; omega
  | ⟨1, _⟩ => show k.val = 0 + k.val; omega

/-- The second half of the input weight: rows 4096 … 8191. -/
theorem wz_read (c : Dev nD) (j : Fin 4096) (k : Fin 2048) :
    (V1 m ρ c main_v3 : S4096x2048.Idx → EReal) (ix2 j k)
      = (m ((c : Thread nD τ).loc main_arg2) : S8192x2048.Idx → EReal) (ix2 ⟨4096 + j.val, by omega⟩ k) := by
  have e : @Eq (S4096x2048.Idx → EReal) (V1 m ρ c main_v3)
      (truncf (F := Ideal) (φ := .f32) .bf16 (extractStridedSlice S4096x2048 ![4096, 0] (m ((c : Thread nD τ).loc main_arg2) : S8192x2048.Idx → EReal) slices_S8192x2048_S4096x2048_4096_0) bitsLt_bf16_f32) := by
    dsimp only [V1, W1, hostOps0]; after_results
  rw [e]
  refine extractStridedSlice_apply (α := EReal) (s := S8192x2048) (t := S4096x2048) ![4096, 0]
    (m ((c : Thread nD τ).loc main_arg2)) slices_S8192x2048_S4096x2048_4096_0 (ix2 j k) (ix2 ⟨4096 + j.val, by omega⟩ k) (fun a => ?_)
  match a with
  | ⟨0, _⟩ => show 4096 + j.val = 4096 + j.val; rfl
  | ⟨1, _⟩ => show k.val = 0 + k.val; omega

/-- The projection weight, in the narrower format: the same entries. -/
theorem wp_read (c : Dev nD) : (V1 m ρ c main_v4 : S33x4096.Idx → EReal) = m ((c : Thread nD τ).loc main_arg3) := by
  dsimp only [V1, W1, hostOps0]; after_results; rfl
/-- The output weight, in the narrower format: the same entries. -/
theorem wo_read (c : Dev nD) : (V1 m ρ c main_v5 : S2048x4096.Idx → EReal) = m ((c : Thread nD τ).loc main_arg7) := by
  dsimp only [V1, W1, hostOps0]; after_results; rfl

/-- The scale as a one-row matrix. -/
theorem g_read (c : Dev nD) (k : Fin 2048) :
    (V1 m ρ c main_v6 : S1x2048.Idx → EReal) (ix2 0 k) = (m ((c : Thread nD τ).loc main_arg8) : S2048.Idx → EReal) (ix1 k) := by
  have e : (V1 m ρ c main_v6 : S1x2048.Idx → EReal)
      = shapeCast S1x2048 (m ((c : Thread nD τ).loc main_arg8) : S2048.Idx → EReal) shapeCasts_S2048_S1x2048 := by
    dsimp only [V1, W1, hostOps0]; after_results; rfl
  rw [e]; exact shapeCast_a_1a_apply _ _ 0 k
/-- The shift as a one-row matrix. -/
theorem b_read (c : Dev nD) (k : Fin 2048) :
    (V1 m ρ c main_v7 : S1x2048.Idx → EReal) (ix2 0 k) = (m ((c : Thread nD τ).loc main_arg9) : S2048.Idx → EReal) (ix1 k) := by
  have e : (V1 m ρ c main_v7 : S1x2048.Idx → EReal)
      = shapeCast S1x2048 (m ((c : Thread nD τ).loc main_arg9) : S2048.Idx → EReal) shapeCasts_S2048_S1x2048 := by
    dsimp only [V1, W1, hostOps0]; after_results; rfl
  rw [e]; exact shapeCast_a_1a_apply _ _ 0 k
/-- The step-size bias as a one-row matrix. -/
theorem dtb_read (c : Dev nD) (j : Fin 4096) :
    (V1 m ρ c main_v9 : S1x4096.Idx → EReal) (ix2 0 j) = (m ((c : Thread nD τ).loc main_arg5) : S4096.Idx → EReal) (ix1 j) := by
  have e : (V1 m ρ c main_v9 : S1x4096.Idx → EReal)
      = shapeCast S1x4096 (m ((c : Thread nD τ).loc main_arg5) : S4096.Idx → EReal) shapeCasts_S4096_S1x4096 := by
    dsimp only [V1, W1, hostOps0]; after_results; rfl
  rw [e]; exact shapeCast_a_1a_apply _ _ 0 j
/-- The skip coefficient as a one-row matrix. -/
theorem dp_read (c : Dev nD) (j : Fin 4096) :
    (V1 m ρ c main_v10 : S1x4096.Idx → EReal) (ix2 0 j) = (m ((c : Thread nD τ).loc main_arg6) : S4096.Idx → EReal) (ix1 j) := by
  have e : (V1 m ρ c main_v10 : S1x4096.Idx → EReal)
      = shapeCast S1x4096 (m ((c : Thread nD τ).loc main_arg6) : S4096.Idx → EReal) shapeCasts_S4096_S1x4096 := by
    dsimp only [V1, W1, hostOps0]; after_results; rfl
  rw [e]; exact shapeCast_a_1a_apply _ _ 0 j

/-- The decay matrix: the exponential of its logarithm, entry by entry. -/
theorem a_read (c : Dev nD) (i : S4096x16.Idx) :
    (V1 m ρ c main_v8 : S4096x16.Idx → EReal) i = Ideal.exp ((m ((c : Thread nD τ).loc main_arg4) : S4096x16.Idx → EReal) i) := by
  have e : @Eq (S4096x16.Idx → EReal) (V1 m ρ c main_v8)
      (Host.exp (F := Ideal) (s := S4096x16) (φ := .f32) (m ((c : Thread nD τ).loc main_arg4))) := by
    dsimp only [V1, W1, hostOps0]; after_results
  rw [e]; rfl

end Cert.KernelIdeal.HostReads

end
-- ==== Proof.Spec.lean ====
/-
  One step of a selective state-space layer over the extended reals, written once as plain functions of
  curried arrays (`Fin a → Fin b → EReal`), so that a tile of rows and the whole batch are instances of the
  same definitions.

  A row `x` of 2048 entries is normalised: with `μ = (Σ x) / 2048` and `σ² = (Σ (x - μ)²) / 2048`,
      x̂ₖ = (xₖ - μ) · (σ² + ε)^(-1/2) · γₖ + βₖ.
  The main stream and the gate are `x̂ · Wᵀ` for the two halves of the input weight; the projection
  `p = main · W_pᵀ` has 33 columns: sixteen input coefficients, sixteen output coefficients, one step size.
  With `δ = softplus(p₃₂ + bias)` the state moves to
      h' = exp(-δ · A) · h + δ · p_n · main,
  the read-out is `Σₙ h'ₙ · p₁₆₊ₙ + D · main`, gated by `z · logistic z`, and the result is the gated
  read-out times the output weight, plus the input row.
-/
import Idealize.ShloMosaic.PureOps.Ideal.Laws
import Idealize.ShloMosaic.Lib.ValueIdx

noncomputable section

namespace Cert.Ssm

open Idealize.ShloMosaic

/-- The row length 2048 as the f32 word the programs divide by. -/
abbrev n2048 : EReal := Ideal.ofBits .f32 0x45000000#32
/-- The variance guard ε, the f32 nearest to 1e-5, as both programs spell it. -/
abbrev lnEps : EReal := Ideal.ofBits .f32 0x3727C5AC#32

/-- The mean of a row. -/
def rowMean (x : Fin 2048 → EReal) : EReal := Ideal.div (∑ k, x k) n2048

/-- The mean squared deviation of a row from its mean. -/
def rowVar (x : Fin 2048 → EReal) : EReal :=
  Ideal.div (∑ k, (x k - rowMean x) * (x k - rowMean x)) n2048

/-- A normalised row: centred, scaled by the reciprocal root of the guarded variance, then the affine map. -/
def lnRow (x g b : Fin 2048 → EReal) (k : Fin 2048) : EReal :=
  (x k - rowMean x) * Ideal.rsqrt (rowVar x + lnEps) * g k + b k

/-- Row-wise normalisation of an array of rows. -/
def xnorm {R : Nat} (x : Fin R → Fin 2048 → EReal) (g b : Fin 2048 → EReal) (r : Fin R) : Fin 2048 → EReal :=
  lnRow (x r) g b

/-- `l · rᵀ`: entry (i, j) is the sum over k of l(i, k) · r(j, k). -/
def mmT {M N K : Nat} (l : Fin M → Fin K → EReal) (r : Fin N → Fin K → EReal) (i : Fin M) (j : Fin N) : EReal :=
  ∑ k, l i k * r j k

/-- softplus(u) = max(u, 0) + log(1 + exp(-|u|)). -/
def softplus (u : EReal) : EReal := max u 0 + Ideal.log1p (Ideal.exp (-(max u (-u))))

/-- The step size of channel j in row b: softplus of the last projection column plus the channel's bias. -/
def delta {B J : Nat} (xp : Fin B → Fin 33 → EReal) (dtb : Fin J → EReal) (b : Fin B) (j : Fin J) : EReal :=
  softplus (xp b 32 + dtb j)

/-- The new state: the old one decayed by exp(-δ·A), plus δ · (input coefficient n) · (main stream). -/
def hnew {B J : Nat} (xm : Fin B → Fin J → EReal) (xp : Fin B → Fin 33 → EReal) (h : Fin B → Fin J → Fin 16 → EReal)
    (A : Fin J → Fin 16 → EReal) (dtb : Fin J → EReal) (b : Fin B) (j : Fin J) (n : Fin 16) : EReal :=
  Ideal.exp (-(delta xp dtb b j) * A j n) * h b j n
    + delta xp dtb b j * xp b ⟨n.val, by omega⟩ * xm b j

/-- The gated read-out: (Σₙ h'ₙ · (output coefficient n) + D · main) · (z · logistic z). -/
def ygated {B J : Nat} (xm z : Fin B → Fin J → EReal) (xp : Fin B → Fin 33 → EReal) (h : Fin B → Fin J → Fin 16 → EReal)
    (A : Fin J → Fin 16 → EReal) (dtb dp : Fin J → EReal) (b : Fin B) (j : Fin J) : EReal :=
  ((∑ n : Fin 16, hnew xm xp h A dtb b j n * xp b ⟨16 + n.val, by omega⟩) + dp j * xm b j)
    * (z b j * Ideal.logistic (z b j))

/-- The main stream `x̂ · W[0:4096]ᵀ`. -/
def xmain {R : Nat} (x : Fin R → Fin 2048 → EReal) (win : Fin 8192 → Fin 2048 → EReal) (g b : Fin 2048 → EReal) :
    Fin R → Fin 4096 → EReal :=
  mmT (xnorm x g b) (fun j => win ⟨j.val, by omega⟩)

/-- The gate `x̂ · W[4096:8192]ᵀ`. -/
def gate {R : Nat} (x : Fin R → Fin 2048 → EReal) (win : Fin 8192 → Fin 2048 → EReal) (g b : Fin 2048 → EReal) :
    Fin R → Fin 4096 → EReal :=
  mmT (xnorm x g b) (fun j => win ⟨4096 + j.val, by omega⟩)

/-- The whole layer's new state, as a function of the ten argument arrays. -/
def stateOut (x : Fin 2048 → Fin 2048 → EReal) (h : Fin 2048 → Fin 4096 → Fin 16 → EReal)
    (win : Fin 8192 → Fin 2048 → EReal) (wxp : Fin 33 → Fin 4096 → EReal) (la : Fin 4096 → Fin 16 → EReal)
    (dtb : Fin 4096 → EReal) (g b : Fin 2048 → EReal) : Fin 2048 → Fin 4096 → Fin 16 → EReal :=
  hnew (xmain x win g b) (mmT (xmain x win g b) wxp) h (fun j n => Ideal.exp (la j n)) dtb

/-- The whole layer's output rows. -/
def layerOut (x : Fin 2048 → Fin 2048 → EReal) (h : Fin 2048 → Fin 4096 → Fin 16 → EReal)
    (win : Fin 8192 → Fin 2048 → EReal) (wxp : Fin 33 → Fin 4096 → EReal) (la : Fin 4096 → Fin 16 → EReal)
    (dtb dp : Fin 4096 → EReal) (wout : Fin 2048 → Fin 4096 → EReal) (g b : Fin 2048 → EReal)
    (r : Fin 2048) (d : Fin 2048) : EReal :=
  mmT (ygated (xmain x win g b) (gate x win g b) (mmT (xmain x win g b) wxp) h (fun j n => Ideal.exp (la j n)) dtb dp)
    wout r d + x r d

end Cert.Ssm

end
-- ==== Proof.LibDotNT.lean ====
/-
  A matrix product with the second operand transposed, read index by index over the extended reals.

  For the dimension numbers that contract the second axis of an M×K array with the second axis of an N×K array
  (no batch axis), the accelerator's matrix product into a zero accumulator is, at the exact values, the function
      (i, j) ↦ Σ_{k < K} l(i, k) · r(j, k).
-/
import Idealize.ShloMosaic.PureOps.Ideal.Laws
import Idealize.ShloMosaic.Lib.ValueIdx

noncomputable section

namespace Cert.LibDotNT

open Idealize.ShloMosaic Idealize.ShloMosaic.ValueIdx

/-- The dimension numbers of l · rᵀ: contract axis 1 of both operands; rows from l, columns from r's rows. -/
def nt (M N K : Nat)
    (wf : DotDims.WF (⟨2, ![M, K]⟩ : Shape) (⟨2, ![N, K]⟩ : Shape) (⟨2, ![M, N]⟩ : Shape) [1] [1] [0] [0] [] []) :
    DotDims (⟨2, ![M, K]⟩ : Shape) (⟨2, ![N, K]⟩ : Shape) (⟨2, ![M, N]⟩ : Shape) where
  lhsContracting := [1]
  rhsContracting := [1]
  lhsNonContracting := [0]
  rhsNonContracting := [0]
  lhsBatch := []
  rhsBatch := []
  wf := wf

/-- The product l · rᵀ of an M×K and an N×K array of extended reals, index by index. -/
def mmT {M N K : Nat} (l : (⟨2, ![M, K]⟩ : Shape).Idx → EReal) (r : (⟨2, ![N, K]⟩ : Shape).Idx → EReal) :
    (⟨2, ![M, N]⟩ : Shape).Idx → EReal :=
  fun j => ∑ k : Fin K, l (ix2 (j 0) k) * r (ix2 (j 1) k)

theorem mmT_apply {M N K : Nat} (l : (⟨2, ![M, K]⟩ : Shape).Idx → EReal) (r : (⟨2, ![N, K]⟩ : Shape).Idx → EReal)
    (i : Fin M) (j : Fin N) : mmT l r (ix2 i j) = ∑ k : Fin K, l (ix2 i k) * r (ix2 j k) := rfl

/-- The sum over the one-axis contraction index is the sum over k < K of l at (i, k) times r at (j, k). -/
theorem contr_sum (M N K : Nat)
    (wf : DotDims.WF (⟨2, ![M, K]⟩ : Shape) (⟨2, ![N, K]⟩ : Shape) (⟨2, ![M, N]⟩ : Shape) [1] [1] [0] [0] [] [])
    (l : (⟨2, ![M, K]⟩ : Shape).Idx → EReal) (r : (⟨2, ![N, K]⟩ : Shape).Idx → EReal)
    (j : (⟨2, ![M, N]⟩ : Shape).Idx) :
    ∑ q : (nt M N K wf).contr.Idx, l ((nt M N K wf).lhsIdx j q) * r ((nt M N K wf).rhsIdx j q) = mmT l r j := by
  unfold mmT
  rw [← Equiv.sum_comp (contrEquiv1 (nt M N K wf) K rfl rfl).symm]
  refine Finset.sum_congr rfl fun k _ => ?_
  have hk := contrEquiv1_symm_val (nt M N K wf) K rfl rfl k
  have el : (nt M N K wf).lhsIdx j ((contrEquiv1 (nt M N K wf) K rfl rfl).symm k) = ix2 (j 0) k :=
    funext fun a => Fin.ext (by
      match a with
      | ⟨0, _⟩ => rfl
      | ⟨1, _⟩ => exact ((nt M N K wf).lhsIdx_val_of_single (cl := 1) rfl j _).trans hk)
  have er : (nt M N K wf).rhsIdx j ((contrEquiv1 (nt M N K wf) K rfl rfl).symm k) = ix2 (j 1) k :=
    funext fun a => Fin.ext (by
      match a with
      | ⟨0, _⟩ => rfl
      | ⟨1, _⟩ => exact ((nt M N K wf).rhsIdx_val_of_single (cr := 1) rfl j _).trans hk)
  rw [el, er]
  rfl

/-- The accelerator's matrix product into the zero accumulator, at the exact values, is l · rᵀ. -/
theorem matmul_zero {M N K : Nat} {φ₁ φ₂ : FTy}
    (wf : DotDims.WF (⟨2, ![M, K]⟩ : Shape) (⟨2, ![N, K]⟩ : Shape) (⟨2, ![M, N]⟩ : Shape) [1] [1] [0] [0] [] [])
    (prec : Option ContractPrecision) (l : FVec Ideal ⟨2, ![M, K]⟩ φ₁) (r : FVec Ideal ⟨2, ![N, K]⟩ φ₂) :
    matmul (F := Ideal) (nt M N K wf) prec l r (constant (F := Ideal) ⟨2, ![M, N]⟩ .f32 0x00000000#32) = mmT l r :=
  funext fun j => (Ideal.matmul_constant_zero_apply (nt M N K wf) prec l r j).trans (contr_sum M N K wf l r j)

end Cert.LibDotNT

end
-- ==== Proof.PayIn.lean ====
/-
  The input-projection tile at an index: a tile of 64 rows is normalised row by row, and each of its three
  products is a sum over the contracted axis.
-/
import proofs.«172780_j45122926412156_1_alg».proof.Proof.Gen.KernelIdeal.Skeleton
import proofs.«172780_j45122926412156_1_alg».proof.Proof.Spec
import proofs.«172780_j45122926412156_1_alg».proof.Proof.LibDotNT
import Idealize.ShloMosaic.PureOps.Ideal.Laws
import Idealize.ShloMosaic.Lib.ValueIdx
import Idealize.ShloMosaic.Lib.ValueLayout
import Idealize.ShloMosaic.Lib.Pipeline.Value

noncomputable section

open Idealize.ShloMosaic Idealize.ShloMosaic.ValueIdx Cert.KernelIdeal Cert.KernelIdeal.Gen

namespace Cert.PayIn

/-! ### Reading the layout operations of the tile at coordinates -/

/-- The reciprocal square root of a vector reads lane by lane. -/
theorem rsqrt_apply {s : Shape} {φ : FTy} (a : FVec Ideal s φ) (i : s.Idx) : rsqrt a i = Ideal.rsqrt (a i) := rfl

/-- Summing a 64 × 2048 tile along its rows: entry r is the sum over k of the tile at (r, k). -/
theorem sum_row (v : FVec Ideal S64x2048 .f32) (hφ : FKind.Formats .f32)
    (hacc : @Eq (BitVec (FTy.bits .f32)) 0x00000000#32 0x00000000#32) (r : Fin 64) :
    multiReduction (F := Ideal) .add [1] S64 v 0x00000000#32 reduces_S64x2048_S64 hφ hacc (ix1 r)
      = ∑ k : Fin 2048, v (ix2 r k) := by
  refine (Ideal.multiReduction_add_single v 0x00000000#32 reduces_S64x2048_S64 hφ hacc (ix1 r)).trans ?_
  refine Finset.sum_congr rfl fun k _ => congrArg v ?_
  funext a
  refine Fin.ext ?_
  match a with
  | ⟨0, _⟩ => rfl
  | ⟨1, _⟩ => rfl

/-- A vector of 64 entries viewed as a 64 × 1 column keeps entry r at (r, 0). -/
theorem col_cast (v : FVec Ideal S64 .f32) (r : Fin 64) (c : Fin 1) :
    shapeCast S64x1 v shapeCasts_S64_S64x1 (ix2 r c) = v (ix1 r) := by
  refine shapeCast_apply v shapeCasts_S64_S64x1 (ix2 r c) (ix1 r) ?_
  rw [Shape.rowMajor_val_one, Shape.rowMajor_val_two]
  show r.val = r.val * 1 + c.val
  omega

/-- A 64 × 1 column spread over 2048 columns reads its row's entry everywhere. -/
theorem bcast_col (v : FVec Ideal S64x1 .f32) (r : Fin 64) (k : Fin 2048) :
    broadcastTo S64x2048 v broadcasts_S64x1_S64x2048 (ix2 r k) = v (ix2 r 0) := by
  refine broadcastTo_apply v broadcasts_S64x1_S64x2048 (ix2 r k) (ix2 r 0) fun a => ?_
  match a with
  | ⟨0, _⟩ => rfl
  | ⟨1, _⟩ => rfl

/-- A 1 × 2048 row spread over 64 rows reads its column's entry everywhere. -/
theorem bcast_row (v : FVec Ideal S1x2048 .f32) (r : Fin 64) (k : Fin 2048) :
    broadcastTo S64x2048 v broadcasts_S1x2048_S64x2048 (ix2 r k) = v (ix2 0 k) := by
  refine broadcastTo_apply v broadcasts_S1x2048_S64x2048 (ix2 r k) (ix2 0 k) fun a => ?_
  match a with
  | ⟨0, _⟩ => rfl
  | ⟨1, _⟩ => rfl

/-- The normalised tile at (r, k): row r of the tile, centred by its mean, scaled by the reciprocal root of
    its guarded variance, times the scale at k plus the shift at k. Rounding to the narrower format changes
    nothing over the extended reals. -/
theorem norm_apply (x0 : Vec Ideal S64x2048 .f32) (x1 x2 : Vec Ideal S1x2048 .f32) (r : Fin 64) (k : Fin 2048) :
    k0_pay2 (F := Ideal) x0 x1 x2 (ix2 r k)
      = Cert.Ssm.lnRow (fun k => x0 (ix2 r k)) (fun k => x1 (ix2 0 k)) (fun k => x2 (ix2 0 k)) k := by
  unfold k0_pay2
  -- the lane-wise and layout operations, down to the row sums of the tile and of its squared deviations
  simp only [truncf_apply, addf_apply, mulf_apply, subf_apply, divf_apply, rsqrt_apply, broadcast_apply,
    bcast_col, bcast_row, col_cast, shapeCast_self]
  rw [sum_row, sum_row]
  -- the squared deviation under the second sum, down to the row sum inside it
  simp only [truncf_apply, addf_apply, mulf_apply, subf_apply, divf_apply, rsqrt_apply, broadcast_apply,
    bcast_col, bcast_row, col_cast, shapeCast_self]
  rw [sum_row]
  rfl

/-- The two wide products of the tile into the zero accumulator: entry (r, j) is the sum over the 2048
    columns of the left operand at (r, k) times the right operand at (j, k). -/
theorem dot_wide_apply (l : FVec Ideal S64x2048 .bf16) (w : FVec Ideal S4096x2048 .bf16) (r : Fin 64) (j : Fin 4096) :
    matmul (F := Ideal) dot_S64x2048_S4096x2048_S64x4096_1_1_0_0_n_n none l w
        (constant (F := Ideal) S64x4096 .f32 0x00000000#32) (ix2 r j)
      = ∑ k : Fin 2048, l (ix2 r k) * w (ix2 j k) :=
  congrFun (Cert.LibDotNT.matmul_zero (M := 64) (N := 4096) (K := 2048)
    dot_S64x2048_S4096x2048_S64x4096_1_1_0_0_n_n.wf none l w) (ix2 r j)

/-- The 33-column product of the tile into the zero accumulator: entry (r, s) is the sum over the 4096
    channels of the left operand at (r, j) times the right operand at (s, j). -/
theorem dot_proj_apply (l : FVec Ideal S64x4096 .bf16) (w : FVec Ideal S33x4096 .bf16) (r : Fin 64) (s : Fin 33) :
    matmul (F := Ideal) dot_S64x4096_S33x4096_S64x33_1_1_0_0_n_n none l w
        (constant (F := Ideal) S64x33 .f32 0x00000000#32) (ix2 r s)
      = ∑ j : Fin 4096, l (ix2 r j) * w (ix2 s j) :=
  congrFun (Cert.LibDotNT.matmul_zero (M := 64) (N := 33) (K := 4096)
    dot_S64x4096_S33x4096_S64x33_1_1_0_0_n_n.wf none l w) (ix2 r s)

/-- The main-stream tile: row r, column j is the normalised row r against row j of the tile's weight. -/
theorem main_apply (x0 : Vec Ideal S64x2048 .f32) (x1 x2 : Vec Ideal S1x2048 .f32) (x3 : Vec Ideal S4096x2048 .bf16)
    (r : Fin 64) (j : Fin 4096) :
    k0_pay3 (F := Ideal) x0 x1 x2 x3 (ix2 r j)
      = Cert.Ssm.mmT (Cert.Ssm.xnorm (fun r k => x0 (ix2 r k)) (fun k => x1 (ix2 0 k)) (fun k => x2 (ix2 0 k)))
          (fun j k => x3 (ix2 j k)) r j := by
  unfold k0_pay3
  simp only [shapeCast_self]
  refine (dot_wide_apply (k0_pay2 x0 x1 x2) x3 r j).trans ?_
  exact Finset.sum_congr rfl fun k _ => congrArg (· * x3 (ix2 j k)) (norm_apply x0 x1 x2 r k)

/-- The gate tile: the same with the other weight. -/
theorem gate_apply (x0 : Vec Ideal S64x2048 .f32) (x1 x2 : Vec Ideal S1x2048 .f32) (x4 : Vec Ideal S4096x2048 .bf16)
    (r : Fin 64) (j : Fin 4096) :
    k0_pay4 (F := Ideal) x0 x1 x2 x4 (ix2 r j)
      = Cert.Ssm.mmT (Cert.Ssm.xnorm (fun r k => x0 (ix2 r k)) (fun k => x1 (ix2 0 k)) (fun k => x2 (ix2 0 k)))
          (fun j k => x4 (ix2 j k)) r j := by
  unfold k0_pay4
  simp only [shapeCast_self]
  refine (dot_wide_apply (k0_pay2 x0 x1 x2) x4 r j).trans ?_
  exact Finset.sum_congr rfl fun k _ => congrArg (· * x4 (ix2 j k)) (norm_apply x0 x1 x2 r k)

/-- The projection tile: row r, column s is row r of the main-stream tile against row s of the projection weight. -/
theorem proj_apply (v30 : FVec Ideal S64x4096 .f32) (x5 : Vec Ideal S33x4096 .bf16) (r : Fin 64) (s : Fin 33) :
    k0_pay1 (F := Ideal) v30 x5 (ix2 r s)
      = Cert.Ssm.mmT (fun r j => v30 (ix2 r j)) (fun s j => x5 (ix2 s j)) r s := by
  unfold k0_pay1
  simp only [shapeCast_self]
  exact dot_proj_apply (truncf .bf16 v30 bitsLt_bf16_f32) x5 r s

end Cert.PayIn

end
-- ==== Proof.RegionIn.lean ====
/-
  The first region, from tiles to arrays.  Grid point t handles rows 64·t … 64·t + 63 of the batch: it reads
  that block of rows of the input and the whole of the scale, the shift and the three weights, and writes the
  same block of rows of the main stream, of the gate and of the projection.  Every row of the batch lies in
  exactly one such block, so after the region each of the three arrays is the row-wise function of the
  region's input arrays, at every index.
-/
import proofs.«172780_j45122926412156_1_alg».proof.Proof.Gen.KernelIdeal.Frame
import proofs.«172780_j45122926412156_1_alg».proof.Proof.PayIn
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat Cfg Window)
open Cert.KernelIdeal Cert.KernelIdeal.Gen

namespace Cert.KernelIdeal.RegionIn

variable (V : (c : Dev nD) → (b : Ref sig .tc) → Buf (Elt Ideal) ((c : Thread nD τ).loc b))

theorem zero2 : (![0, 0] : Fin 2 → Nat) = fun _ => 0 := funext fun a => by fin_cases a <;> rfl

/-! ## The region's input arrays, curried -/

abbrev X (c : Dev nD) : Fin 2048 → Fin 2048 → EReal := fun r k => (V c main_arg0 : S2048x2048.Idx → EReal) (ix2 r k)
abbrev Gm (c : Dev nD) : Fin 2048 → EReal := fun k => (V c main_v6 : S1x2048.Idx → EReal) (ix2 0 k)
abbrev Bt (c : Dev nD) : Fin 2048 → EReal := fun k => (V c main_v7 : S1x2048.Idx → EReal) (ix2 0 k)
abbrev Wx (c : Dev nD) : Fin 4096 → Fin 2048 → EReal := fun j k => (V c main_v2 : S4096x2048.Idx → EReal) (ix2 j k)
abbrev Wz (c : Dev nD) : Fin 4096 → Fin 2048 → EReal := fun j k => (V c main_v3 : S4096x2048.Idx → EReal) (ix2 j k)
abbrev Wp (c : Dev nD) : Fin 33 → Fin 4096 → EReal := fun s j => (V c main_v4 : S33x4096.Idx → EReal) (ix2 s j)

/-- The main stream of the whole batch. -/
def mainArr (c : Dev nD) : S2048x4096.Idx → EReal := fun i =>
  Cert.Ssm.mmT (Cert.Ssm.xnorm (X V c) (Gm V c) (Bt V c)) (Wx V c) (i 0) (i 1)
/-- The gate of the whole batch. -/
def gateArr (c : Dev nD) : S2048x4096.Idx → EReal := fun i =>
  Cert.Ssm.mmT (Cert.Ssm.xnorm (X V c) (Gm V c) (Bt V c)) (Wz V c) (i 0) (i 1)
/-- The projection of the whole batch. -/
def projArr (c : Dev nD) : S2048x33.Idx → EReal := fun i =>
  Cert.Ssm.mmT (fun r j => mainArr V c (ix2 r j)) (Wp V c) (i 0) (i 1)

/-! ## Which block each window holds at a point -/

/-- The row-block windows (input 0, outputs 6, 7, 8) are at block t of the rows and block 0 of the columns;
    the other windows stay at block (0, 0). -/
theorem idx : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0 :=
  (by decide +kernel : ∀ t : Fin grid0.N, _)

/-- Row r of block t is row 64·t + r of the batch. -/
def row (t : Fin cfg0.N) (r : Fin 64) : Fin 2048 :=
  ⟨t.val * 64 + r.val, by have hN : grid0.N = 32 := N_0; have ht : t.val < grid0.N := t.isLt; have := r.isLt; omega⟩

/-! ## The input blocks, read where the rows say -/

theorem x_blk (c : Dev nD) (t : Fin cfg0.N) :
    (fun (r : Fin 64) (k : Fin 2048) => iblk0 V c 0 t (ix2 r k)) = fun r k => X V c (row t r) k := by
  funext r k
  show (V c main_arg0 : S2048x2048.Idx → EReal) (((cfg0.win 0).blk t).view.emb (ix2 r k)) = _
  refine congrArg _ (funext fun a => Fin.ext ?_)
  obtain ⟨e0, e1, -⟩ := idx t
  match a with
  | ⟨0, _⟩ => show win0_0.index t (0 : Fin 2) * 64 + 1 * r.val = t.val * 64 + r.val; rw [e0]; omega
  | ⟨1, _⟩ => show win0_0.index t (1 : Fin 2) * 2048 + 1 * k.val = k.val; rw [e1]; omega

theorem g_blk (c : Dev nD) (t : Fin cfg0.N) :
    (fun (k : Fin 2048) => iblk0 V c 1 t (ix2 0 k)) = Gm V c := by
  funext k
  show (V c main_v6 : S1x2048.Idx → EReal) (((cfg0.win 1).blk t).view.emb (ix2 0 k)) = _
  refine congrArg _ (funext fun a => Fin.ext ?_)
  obtain ⟨-, -, e0, e1, -⟩ := idx t
  match a with
  | ⟨0, _⟩ => show win0_1.index t (0 : Fin 2) * 1 + 1 * 0 = 0; rw [e0]
  | ⟨1, _⟩ => show win0_1.index t (1 : Fin 2) * 2048 + 1 * k.val = k.val; rw [e1]; omega

theorem b_blk (c : Dev nD) (t : Fin cfg0.N) :
    (fun (k : Fin 2048) => iblk0 V c 2 t (ix2 0 k)) = Bt V c := by
  funext k
  show (V c main_v7 : S1x2048.Idx → EReal) (((cfg0.win 2).blk t).view.emb (ix2 0 k)) = _
  refine congrArg _ (funext fun a => Fin.ext ?_)
  obtain ⟨-, -, -, -, e0, e1, -⟩ := idx t
  match a with
  | ⟨0, _⟩ => show win0_2.index t (0 : Fin 2) * 1 + 1 * 0 = 0; rw [e0]
  | ⟨1, _⟩ => show win0_2.index t (1 : Fin 2) * 2048 + 1 * k.val = k.val; rw [e1]; omega

theorem wx_blk (c : Dev nD) (t : Fin cfg0.N) :
    (fun (j : Fin 4096) (k : Fin 2048) => iblk0 V c 3 t (ix2 j k)) = Wx V c := by
  funext j k
  show (V c main_v2 : S4096x2048.Idx → EReal) (((cfg0.win 3).blk t).view.emb (ix2 j k)) = _
  refine congrArg _ (funext fun a => Fin.ext ?_)
  obtain ⟨-, -, -, -, -, -, e0, e1, -⟩ := idx t
  match a with
  | ⟨0, _⟩ => show win0_3.index t (0 : Fin 2) * 4096 + 1 * j.val = j.val; rw [e0]; omega
  | ⟨1, _⟩ => show win0_3.index t (1 : Fin 2) * 2048 + 1 * k.val = k.val; rw [e1]; omega

theorem wz_blk (c : Dev nD) (t : Fin cfg0.N) :
    (fun (j : Fin 4096) (k : Fin 2048) => iblk0 V c 4 t (ix2 j k)) = Wz V c := by
  funext j k
  show (V c main_v3 : S4096x2048.Idx → EReal) (((cfg0.win 4).blk t).view.emb (ix2 j k)) = _
  refine congrArg _ (funext fun a => Fin.ext ?_)
  obtain ⟨-, -, -, -, -, -, -, -, e0, e1, -⟩ := idx t
  match a with
  | ⟨0, _⟩ => show win0_4.index t (0 : Fin 2) * 4096 + 1 * j.val = j.val; rw [e0]; omega
  | ⟨1, _⟩ => show win0_4.index t (1 : Fin 2) * 2048 + 1 * k.val = k.val; rw [e1]; omega

theorem wp_blk (c : Dev nD) (t : Fin cfg0.N) :
    (fun (s : Fin 33) (j : Fin 4096) => iblk0 V c 5 t (ix2 s j)) = Wp V c := by
  funext s j
  show (V c main_v4 : S33x4096.Idx → EReal) (((cfg0.win 5).blk t).view.emb (ix2 s j)) = _
  refine congrArg _ (funext fun a => Fin.ext ?_)
  obtain ⟨-, -, -, -, -, -, -, -, -, -, e0, e1, -⟩ := idx t
  match a with
  | ⟨0, _⟩ => show win0_5.index t (0 : Fin 2) * 33 + 1 * s.val = s.val; rw [e0]; omega
  | ⟨1, _⟩ => show win0_5.index t (1 : Fin 2) * 4096 + 1 * j.val = j.val; rw [e1]; omega

/-! ## What a point writes back -/

/-- The main-stream tile of point t, row r, column j, is the whole batch's main stream at row 64·t + r. -/
theorem main_tile (c : Dev nD) (t : Fin cfg0.N) (r : Fin 64) (j : Fin 4096) :
    k0_pay3 (F := Ideal) (iblk0 V c 0 t) (iblk0 V c 1 t) (iblk0 V c 2 t) (iblk0 V c 3 t) (ix2 r j)
      = mainArr V c (ix2 (row t r) j) := by
  refine (Cert.PayIn.main_apply (iblk0 V c 0 t) (iblk0 V c 1 t) (iblk0 V c 2 t) (iblk0 V c 3 t) r j).trans ?_
  rw [x_blk V c t, g_blk V c t, b_blk V c t, wx_blk V c t]
  rfl

theorem gate_tile (c : Dev nD) (t : Fin cfg0.N) (r : Fin 64) (j : Fin 4096) :
    k0_pay4 (F := Ideal) (iblk0 V c 0 t) (iblk0 V c 1 t) (iblk0 V c 2 t) (iblk0 V c 4 t) (ix2 r j)
      = gateArr V c (ix2 (row t r) j) := by
  refine (Cert.PayIn.gate_apply (iblk0 V c 0 t) (iblk0 V c 1 t) (iblk0 V c 2 t) (iblk0 V c 4 t) r j).trans ?_
  rw [x_blk V c t, g_blk V c t, b_blk V c t, wz_blk V c t]
  rfl

theorem proj_tile (c : Dev nD) (t : Fin cfg0.N) (r : Fin 64) (s : Fin 33) :
    k0_pay1 (F := Ideal) (k0_pay3 (iblk0 V c 0 t) (iblk0 V c 1 t) (iblk0 V c 2 t) (iblk0 V c 3 t)) (iblk0 V c 5 t) (ix2 r s)
      = projArr V c (ix2 (row t r) s) := by
  refine (Cert.PayIn.proj_apply _ (iblk0 V c 5 t) r s).trans ?_
  rw [wp_blk V c t]
  have hm : (fun (r : Fin 64) (j : Fin 4096) =>
      k0_pay3 (F := Ideal) (iblk0 V c 0 t) (iblk0 V c 1 t) (iblk0 V c 2 t) (iblk0 V c 3 t) (ix2 r j))
      = fun r j => mainArr V c (ix2 (row t r) j) := funext fun r => funext fun j => main_tile V c t r j
  rw [hm]
  rfl

/-- A block of rows: the indices whose row is in 64·t … 64·t + 63. -/
theorem emb6 (t : Fin cfg0.N) (r : Fin 64) (j : Fin 4096) :
    ((cfg0.win 6).blk t).view.emb (ix2 r j) = ix2 (row t r) j := by
  refine funext fun a => Fin.ext ?_
  obtain ⟨-, -, -, -, -, -, -, -, -, -, -, -, e0, e1, -⟩ := idx t
  match a with
  | ⟨0, _⟩ => show win0_6.index t (0 : Fin 2) * 64 + 1 * r.val = t.val * 64 + r.val; rw [e0]; omega
  | ⟨1, _⟩ => show win0_6.index t (1 : Fin 2) * 4096 + 1 * j.val = j.val; rw [e1]; omega
theorem emb7 (t : Fin cfg0.N) (r : Fin 64) (j : Fin 4096) :
    ((cfg0.win 7).blk t).view.emb (ix2 r j) = ix2 (row t r) j := by
  refine funext fun a => Fin.ext ?_
  obtain ⟨-, -, -, -, -, -, -, -, -, -, -, -, -, -, e0, e1, -⟩ := idx t
  match a with
  | ⟨0, _⟩ => show win0_7.index t (0 : Fin 2) * 64 + 1 * r.val = t.val * 64 + r.val; rw [e0]; omega
  | ⟨1, _⟩ => show win0_7.index t (1 : Fin 2) * 4096 + 1 * j.val = j.val; rw [e1]; omega
theorem emb8 (t : Fin cfg0.N) (r : Fin 64) (s : Fin 33) :
    ((cfg0.win 8).blk t).view.emb (ix2 r s) = ix2 (row t r) s := by
  refine funext fun a => Fin.ext ?_
  obtain ⟨-, -, -, -, -, -, -, -, -, -, -, -, -, -, -, -, e0, e1⟩ := idx t
  match a with
  | ⟨0, _⟩ => show win0_8.index t (0 : Fin 2) * 64 + 1 * r.val = t.val * 64 + r.val; rw [e0]; omega
  | ⟨1, _⟩ => show win0_8.index t (1 : Fin 2) * 33 + 1 * s.val = s.val; rw [e1]; omega

theorem flushed6 (c : Dev nD) (t : Fin cfg0.N) :
    (dat0 V c).flushed 6 t = ((cfg0.win 6).blk t).view.read (Elt Ideal) (mainArr V c) := by
  show (cfg0.win 6).cut (grid0.coords t) ((dat0 V c).after 6 t) = _
  rw [after0_6]
  unfold out0_6
  rw [View.canon_unit_zero zero2]
  simp only [View.ld_unit_zero (S := S64x2048) zero2, View.ld_unit_zero (S := S1x2048) zero2,
    View.ld_unit_zero (S := S4096x2048) zero2]
  funext y
  obtain ⟨r, j, rfl⟩ : ∃ (r : Fin 64) (j : Fin 4096), y = ix2 r j := ⟨y 0, y 1, eq_ix2 y⟩
  show k0_pay3 (F := Ideal) (iblk0 V c 0 t) (iblk0 V c 1 t) (iblk0 V c 2 t) (iblk0 V c 3 t) (ix2 r j)
    = mainArr V c (((cfg0.win 6).blk t).view.emb (ix2 r j))
  rw [emb6]
  exact main_tile V c t r j

theorem flushed7 (c : Dev nD) (t : Fin cfg0.N) :
    (dat0 V c).flushed 7 t = ((cfg0.win 7).blk t).view.read (Elt Ideal) (gateArr V c) := by
  show (cfg0.win 7).cut (grid0.coords t) ((dat0 V c).after 7 t) = _
  rw [after0_7]
  unfold out0_7
  rw [View.canon_unit_zero zero2]
  simp only [View.ld_unit_zero (S := S64x2048) zero2, View.ld_unit_zero (S := S1x2048) zero2,
    View.ld_unit_zero (S := S4096x2048) zero2]
  funext y
  obtain ⟨r, j, rfl⟩ : ∃ (r : Fin 64) (j : Fin 4096), y = ix2 r j := ⟨y 0, y 1, eq_ix2 y⟩
  show k0_pay4 (F := Ideal) (iblk0 V c 0 t) (iblk0 V c 1 t) (iblk0 V c 2 t) (iblk0 V c 4 t) (ix2 r j)
    = gateArr V c (((cfg0.win 7).blk t).view.emb (ix2 r j))
  rw [emb7]
  exact gate_tile V c t r j

theorem flushed8 (c : Dev nD) (t : Fin cfg0.N) :
    (dat0 V c).flushed 8 t = ((cfg0.win 8).blk t).view.read (Elt Ideal) (projArr V c) := by
  show (cfg0.win 8).cut (grid0.coords t) ((dat0 V c).after 8 t) = _
  rw [after0_8]
  unfold out0_8
  rw [View.canon_unit_zero zero2]
  simp only [View.ld_unit_zero (S := S64x2048) zero2, View.ld_unit_zero (S := S1x2048) zero2,
    View.ld_unit_zero (S := S4096x2048) zero2, View.ld_unit_zero (S := S33x4096) zero2]
  funext y
  obtain ⟨r, s, rfl⟩ : ∃ (r : Fin 64) (s : Fin 33), y = ix2 r s := ⟨y 0, y 1, eq_ix2 y⟩
  show k0_pay1 (F := Ideal) (k0_pay3 (iblk0 V c 0 t) (iblk0 V c 1 t) (iblk0 V c 2 t) (iblk0 V c 3 t)) (iblk0 V c 5 t) (ix2 r s)
    = projArr V c (((cfg0.win 8).blk t).view.emb (ix2 r s))
  rw [emb8]
  exact proj_tile V c t r s

/-! ## Every index lies in some point's block -/

theorem mem6 (t : Fin cfg0.N) (i : S2048x4096.Idx) :
    i ∈ ((cfg0.win 6).blk t).view.set ↔ ∀ a : Fin 2, win0_6.index t a * S64x4096.size a ≤ (i a).val ∧ (i a).val < win0_6.index t a * S64x4096.size a + S64x4096.size a := by
  show i ∈ ((View.whole main_v11_0).slice (win0_6.rect t)).set ↔ _
  rw [View.set_slice_whole, Rect.mem_set_unit]
  exact Iff.rfl
theorem mem7 (t : Fin cfg0.N) (i : S2048x4096.Idx) :
    i ∈ ((cfg0.win 7).blk t).view.set ↔ ∀ a : Fin 2, win0_7.index t a * S64x4096.size a ≤ (i a).val ∧ (i a).val < win0_7.index t a * S64x4096.size a + S64x4096.size a := by
  show i ∈ ((View.whole main_v11_1).slice (win0_7.rect t)).set ↔ _
  rw [View.set_slice_whole, Rect.mem_set_unit]
  exact Iff.rfl
theorem mem8 (t : Fin cfg0.N) (i : S2048x33.Idx) :
    i ∈ ((cfg0.win 8).blk t).view.set ↔ ∀ a : Fin 2, win0_8.index t a * S64x33.size a ≤ (i a).val ∧ (i a).val < win0_8.index t a * S64x33.size a + S64x33.size a := by
  show i ∈ ((View.whole main_v11_2).slice (win0_8.rect t)).set ↔ _
  rw [View.set_slice_whole, Rect.mem_set_unit]
  exact Iff.rfl

/-- The point whose block holds row b. -/
def pointOf (b : Fin 2048) : Fin cfg0.N := ⟨b.val / 64, by have hN : grid0.N = 32 := N_0; have := b.isLt; show b.val / 64 < grid0.N; omega⟩

theorem cover6 (i : S2048x4096.Idx) : ∃ t : Fin cfg0.N, (cfg0.win 6).flush t = true ∧ i ∈ ((cfg0.win 6).blk t).view.set := by
  refine ⟨pointOf (i 0), flush0_6 _, ?_⟩
  rw [mem6]
  obtain ⟨-, -, -, -, -, -, -, -, -, -, -, -, e0, e1, -⟩ := idx (pointOf (i 0))
  have h0 : (i 0).val < 2048 := (i 0).isLt
  have h1 : (i 1).val < 4096 := (i 1).isLt
  intro a
  match a with
  | ⟨0, _⟩ => show win0_6.index (pointOf (i 0)) (0 : Fin 2) * 64 ≤ (i 0).val ∧ (i 0).val < win0_6.index (pointOf (i 0)) (0 : Fin 2) * 64 + 64; rw [e0]; show (i 0).val / 64 * 64 ≤ _ ∧ _ < (i 0).val / 64 * 64 + 64; omega
  | ⟨1, _⟩ => show win0_6.index (pointOf (i 0)) (1 : Fin 2) * 4096 ≤ (i 1).val ∧ (i 1).val < win0_6.index (pointOf (i 0)) (1 : Fin 2) * 4096 + 4096; rw [e1]; omega

theorem cover7 (i : S2048x4096.Idx) : ∃ t : Fin cfg0.N, (cfg0.win 7).flush t = true ∧ i ∈ ((cfg0.win 7).blk t).view.set := by
  refine ⟨pointOf (i 0), flush0_7 _, ?_⟩
  rw [mem7]
  obtain ⟨-, -, -, -, -, -, -, -, -, -, -, -, -, -, e0, e1, -⟩ := idx (pointOf (i 0))
  have h0 : (i 0).val < 2048 := (i 0).isLt
  have h1 : (i 1).val < 4096 := (i 1).isLt
  intro a
  match a with
  | ⟨0, _⟩ => show win0_7.index (pointOf (i 0)) (0 : Fin 2) * 64 ≤ (i 0).val ∧ (i 0).val < win0_7.index (pointOf (i 0)) (0 : Fin 2) * 64 + 64; rw [e0]; show (i 0).val / 64 * 64 ≤ _ ∧ _ < (i 0).val / 64 * 64 + 64; omega
  | ⟨1, _⟩ => show win0_7.index (pointOf (i 0)) (1 : Fin 2) * 4096 ≤ (i 1).val ∧ (i 1).val < win0_7.index (pointOf (i 0)) (1 : Fin 2) * 4096 + 4096; rw [e1]; omega

theorem cover8 (i : S2048x33.Idx) : ∃ t : Fin cfg0.N, (cfg0.win 8).flush t = true ∧ i ∈ ((cfg0.win 8).blk t).view.set := by
  refine ⟨pointOf (i 0), flush0_8 _, ?_⟩
  rw [mem8]
  obtain ⟨-, -, -, -, -, -, -, -, -, -, -, -, -, -, -, -, e0, e1⟩ := idx (pointOf (i 0))
  have h0 : (i 0).val < 2048 := (i 0).isLt
  have h1 : (i 1).val < 33 := (i 1).isLt
  intro a
  match a with
  | ⟨0, _⟩ => show win0_8.index (pointOf (i 0)) (0 : Fin 2) * 64 ≤ (i 0).val ∧ (i 0).val < win0_8.index (pointOf (i 0)) (0 : Fin 2) * 64 + 64; rw [e0]; show (i 0).val / 64 * 64 ≤ _ ∧ _ < (i 0).val / 64 * 64 + 64; omega
  | ⟨1, _⟩ => show win0_8.index (pointOf (i 0)) (1 : Fin 2) * 33 ≤ (i 1).val ∧ (i 1).val < win0_8.index (pointOf (i 0)) (1 : Fin 2) * 33 + 33; rw [e1]; omega

/-! ## The three arrays after the region -/

theorem final6 (c : Dev nD) : (dat0 V c).arrAt 6 cfg0.N = mainArr V c :=
  (dat0 V c).arrAt_eq_of_cover 6 (mainArr V c) (fun t _ => flushed6 V c t) cover6
theorem final7 (c : Dev nD) : (dat0 V c).arrAt 7 cfg0.N = gateArr V c :=
  (dat0 V c).arrAt_eq_of_cover 7 (gateArr V c) (fun t _ => flushed7 V c t) cover7
theorem final8 (c : Dev nD) : (dat0 V c).arrAt 8 cfg0.N = projArr V c :=
  (dat0 V c).arrAt_eq_of_cover 8 (projArr V c) (fun t _ => flushed8 V c t) cover8

end Cert.KernelIdeal.RegionIn

end
-- ==== Proof.PaySsm.lean ====
/-
  The state-update tile at an index: 64 rows by 128 channels by 16 states.
-/
import proofs.«172780_j45122926412156_1_alg».proof.Proof.Gen.KernelIdeal.Skeleton
import proofs.«172780_j45122926412156_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

open Idealize.ShloMosaic Idealize.ShloMosaic.ValueIdx Cert.KernelIdeal Cert.KernelIdeal.Gen

namespace Cert.PaySsm

/-! ### Lane-wise operations read at an index -/

theorem exp_apply {s : Shape} {φ : FTy} (a : FVec Ideal s φ) (i : s.Idx) : exp a i = Ideal.exp (a i) := rfl
theorem log1p_apply {s : Shape} {φ : FTy} (a : FVec Ideal s φ) (i : s.Idx) : log1p a i = Ideal.log1p (a i) := rfl
theorem logistic_apply {s : Shape} {φ : FTy} (a : FVec Ideal s φ) (i : s.Idx) :
    logistic a i = Ideal.logistic (a i) := rfl
theorem absf_apply {s : Shape} {φ : FTy} (a : FVec Ideal s φ) (i : s.Idx) : absf a i = max (a i) (-(a i)) := rfl

/-- "Ordered and different" is false of an extended real and itself. -/
theorem cmp_one_self (a : EReal) : Ideal.cmp .one a a = 0#1 := by
  simp [Ideal.cmp]

/-! ### The layout operations of the tile read at coordinates -/

/-- Columns 0 … 15 of the projection: the input coefficients. -/
theorem slice_in (v : FVec Ideal S64x33 .f32) (b : Fin 64) (n : Fin 16) :
    extractStridedSlice S64x16 ![0, 0] v slices_S64x33_o0_0_S64x16 (ix2 b n) = v (ix2 b ⟨n.val, by omega⟩) := by
  refine extractStridedSlice_apply ![0, 0] v slices_S64x33_o0_0_S64x16 (ix2 b n) (ix2 b ⟨n.val, by omega⟩) fun a => ?_
  match a with
  | ⟨0, _⟩ => show b.val = 0 + b.val; omega
  | ⟨1, _⟩ => show n.val = 0 + n.val; omega

/-- Columns 16 … 31 of the projection: the output coefficients. -/
theorem slice_out (v : FVec Ideal S64x33 .f32) (b : Fin 64) (n : Fin 16) :
    extractStridedSlice S64x16 ![0, 16] v slices_S64x33_o0_16_S64x16 (ix2 b n) = v (ix2 b ⟨16 + n.val, by omega⟩) := by
  refine extractStridedSlice_apply ![0, 16] v slices_S64x33_o0_16_S64x16 (ix2 b n) (ix2 b ⟨16 + n.val, by omega⟩)
    fun a => ?_
  match a with
  | ⟨0, _⟩ => show b.val = 0 + b.val; omega
  | ⟨1, _⟩ => show 16 + n.val = 16 + n.val; rfl

/-- Column 32 of the projection: the step size before its bias. -/
theorem slice_step (v : FVec Ideal S64x33 .f32) (b : Fin 64) (c : Fin 1) :
    extractStridedSlice S64x1 ![0, 32] v slices_S64x33_o0_32_S64x1 (ix2 b c) = v (ix2 b 32) := by
  refine extractStridedSlice_apply ![0, 32] v slices_S64x33_o0_32_S64x1 (ix2 b c) (ix2 b 32) fun a => ?_
  match a with
  | ⟨0, _⟩ => show b.val = 0 + b.val; omega
  | ⟨1, _⟩ => show 32 = 32 + c.val; omega

/-- A 64 × 128 array viewed 64 × 128 × 1 keeps entry (b, j) at (b, j, 0). -/
theorem cast_last (v : FVec Ideal S64x128 .f32) (b : Fin 64) (j : Fin 128) (c : Fin 1) :
    shapeCast S64x128x1 v shapeCasts_S64x128_S64x128x1 (ix3 b j c) = v (ix2 b j) := by
  refine shapeCast_apply v shapeCasts_S64x128_S64x128x1 (ix3 b j c) (ix2 b j) ?_
  rw [Shape.rowMajor_val_two, Shape.rowMajor_val_three]
  show b.val * 128 + j.val = (b.val * 128 + j.val) * 1 + c.val
  omega

/-- A 64 × 16 array viewed 64 × 1 × 16 keeps entry (b, n) at (b, 0, n). -/
theorem cast_mid (v : FVec Ideal S64x16 .f32) (b : Fin 64) (c : Fin 1) (n : Fin 16) :
    shapeCast S64x1x16 v shapeCasts_S64x16_S64x1x16 (ix3 b c n) = v (ix2 b n) := by
  refine shapeCast_apply v shapeCasts_S64x16_S64x1x16 (ix3 b c n) (ix2 b n) ?_
  rw [Shape.rowMajor_val_two, Shape.rowMajor_val_three]
  show b.val * 16 + n.val = (b.val * 1 + c.val) * 16 + n.val
  omega

/-- A 128 × 16 array viewed 1 × 128 × 16 keeps entry (j, n) at (0, j, n). -/
theorem cast_lead (v : FVec Ideal S128x16 .f32) (c : Fin 1) (j : Fin 128) (n : Fin 16) :
    shapeCast S1x128x16 v shapeCasts_S128x16_S1x128x16 (ix3 c j n) = v (ix2 j n) := by
  refine shapeCast_apply v shapeCasts_S128x16_S1x128x16 (ix3 c j n) (ix2 j n) ?_
  rw [Shape.rowMajor_val_two, Shape.rowMajor_val_three]
  show j.val * 16 + n.val = (c.val * 128 + j.val) * 16 + n.val
  omega

/-- Spreading a 64 × 128 × 1 array over the 16 states. -/
theorem bcast_last (v : FVec Ideal S64x128x1 .f32) (b : Fin 64) (j : Fin 128) (n : Fin 16) :
    broadcastTo S64x128x16 v broadcasts_S64x128x1_S64x128x16 (ix3 b j n) = v (ix3 b j 0) := by
  refine broadcastTo_apply v broadcasts_S64x128x1_S64x128x16 (ix3 b j n) (ix3 b j 0) fun a => ?_
  match a with
  | ⟨0, _⟩ => rfl
  | ⟨1, _⟩ => rfl
  | ⟨2, _⟩ => rfl

/-- Spreading a 64 × 1 × 16 array over the 128 channels. -/
theorem bcast_mid (v : FVec Ideal S64x1x16 .f32) (b : Fin 64) (j : Fin 128) (n : Fin 16) :
    broadcastTo S64x128x16 v broadcasts_S64x1x16_S64x128x16 (ix3 b j n) = v (ix3 b 0 n) := by
  refine broadcastTo_apply v broadcasts_S64x1x16_S64x128x16 (ix3 b j n) (ix3 b 0 n) fun a => ?_
  match a with
  | ⟨0, _⟩ => rfl
  | ⟨1, _⟩ => rfl
  | ⟨2, _⟩ => rfl

/-- Spreading a 1 × 128 × 16 array over the 64 rows. -/
theorem bcast_lead (v : FVec Ideal S1x128x16 .f32) (b : Fin 64) (j : Fin 128) (n : Fin 16) :
    broadcastTo S64x128x16 v broadcasts_S1x128x16_S64x128x16 (ix3 b j n) = v (ix3 0 j n) := by
  refine broadcastTo_apply v broadcasts_S1x128x16_S64x128x16 (ix3 b j n) (ix3 0 j n) fun a => ?_
  match a with
  | ⟨0, _⟩ => rfl
  | ⟨1, _⟩ => rfl
  | ⟨2, _⟩ => rfl

/-- Spreading a 64 × 1 column over the 128 channels. -/
theorem bcast_col (v : FVec Ideal S64x1 .f32) (b : Fin 64) (j : Fin 128) :
    broadcastTo S64x128 v broadcasts_S64x1_S64x128 (ix2 b j) = v (ix2 b 0) := by
  refine broadcastTo_apply v broadcasts_S64x1_S64x128 (ix2 b j) (ix2 b 0) fun a => ?_
  match a with
  | ⟨0, _⟩ => rfl
  | ⟨1, _⟩ => rfl

/-- Spreading a 1 × 128 row over the 64 rows. -/
theorem bcast_row (v : FVec Ideal S1x128 .f32) (b : Fin 64) (j : Fin 128) :
    broadcastTo S64x128 v broadcasts_S1x128_S64x128 (ix2 b j) = v (ix2 0 j) := by
  refine broadcastTo_apply v broadcasts_S1x128_S64x128 (ix2 b j) (ix2 0 j) fun a => ?_
  match a with
  | ⟨0, _⟩ => rfl
  | ⟨1, _⟩ => rfl

/-- Summing a 64 × 128 × 16 tile over its states: entry (b, j) is the sum over n of the tile at (b, j, n). -/
theorem sum_states (v : FVec Ideal S64x128x16 .f32) (hφ : FKind.Formats .f32)
    (hacc : @Eq (BitVec (FTy.bits .f32)) 0x00000000#32 0x00000000#32) (b : Fin 64) (j : Fin 128) :
    multiReduction (F := Ideal) .add [2] S64x128 v 0x00000000#32 reduces_S64x128x16_S64x128 hφ hacc (ix2 b j)
      = ∑ n : Fin 16, v (ix3 b j n) := by
  refine (Ideal.multiReduction_add_single v 0x00000000#32 reduces_S64x128x16_S64x128 hφ hacc (ix2 b j)).trans ?_
  refine Finset.sum_congr rfl fun n _ => congrArg v ?_
  funext a
  refine Fin.ext ?_
  match a with
  | ⟨0, _⟩ => rfl
  | ⟨1, _⟩ => rfl
  | ⟨2, _⟩ => rfl

/-! ### The tile's intermediate values -/

/-- The step size at (b, j): the selection on "ordered and different from itself" always takes its second
    branch, which is softplus of column 32 of the projection plus the channel's bias. -/
theorem step_apply (x2 : Vec Ideal S64x33 .f32) (x5 : Vec Ideal S1x128 .f32) (b : Fin 64) (j : Fin 128) :
    k1_pay9 (F := Ideal) x2 x5 (ix2 b j)
      = Cert.Ssm.delta (fun b s => x2 (ix2 b s)) (fun j => x5 (ix2 0 j)) b j := by
  unfold k1_pay9 k1_pay5
  simp only [select_apply, cmpf_apply, Ideal.cmpf_def, cmp_one_self, select_zero, addf_apply, subf_apply,
    maximumf_apply, absf_apply, exp_apply, log1p_apply, broadcast_apply, bcast_col, bcast_row, slice_step,
    shapeCast_self, Ideal.ofBits_def, Ideal.ofBits_zero_f32, sub_zero, zero_sub]
  rfl

/-- The exponent of the decay at (b, j, n): minus the step size times the channel's rate. -/
theorem decay_apply (x2 : Vec Ideal S64x33 .f32) (x4 : Vec Ideal S128x16 .f32) (x5 : Vec Ideal S1x128 .f32)
    (b : Fin 64) (j : Fin 128) (n : Fin 16) :
    k1_pay10 (F := Ideal) x2 x4 x5 (ix3 b j n)
      = -(Cert.Ssm.delta (fun b s => x2 (ix2 b s)) (fun j => x5 (ix2 0 j)) b j) * x4 (ix2 j n) := by
  unfold k1_pay10
  simp only [mulf_apply, subf_apply, broadcast_apply, bcast_last, bcast_lead, cast_last, cast_lead,
    shapeCast_self, step_apply, Ideal.ofBits_def, Ideal.ofBits_zero_f32, zero_sub]

/-- The input coefficient n of row b. -/
theorem coef_in_apply (x2 : Vec Ideal S64x33 .f32) (b : Fin 64) (n : Fin 16) :
    k1_pay7 (F := Ideal) x2 (ix2 b n) = x2 (ix2 b ⟨n.val, by omega⟩) := by
  unfold k1_pay7 k1_pay5
  simp only [shapeCast_self, slice_in]

/-- The output coefficient n of row b. -/
theorem coef_out_apply (x2 : Vec Ideal S64x33 .f32) (b : Fin 64) (n : Fin 16) :
    k1_pay8 (F := Ideal) x2 (ix2 b n) = x2 (ix2 b ⟨16 + n.val, by omega⟩) := by
  unfold k1_pay8 k1_pay5
  simp only [shapeCast_self, slice_out]

/-- The new state of the tile at (b, j, n). -/
theorem state_apply (x0 : Vec Ideal S64x128 .f32) (x2 : Vec Ideal S64x33 .f32) (x3 : Vec Ideal S64x128x16 .f32)
    (x4 : Vec Ideal S128x16 .f32) (x5 : Vec Ideal S1x128 .f32) (b : Fin 64) (j : Fin 128) (n : Fin 16) :
    k1_pay1 (F := Ideal) (k1_pay3 x0) x3 (k1_pay7 x2) (k1_pay9 x2 x5) (k1_pay10 x2 x4 x5) (ix3 b j n)
      = Cert.Ssm.hnew (fun b j => x0 (ix2 b j)) (fun b s => x2 (ix2 b s)) (fun b j n => x3 (ix3 b j n))
          (fun j n => x4 (ix2 j n)) (fun j => x5 (ix2 0 j)) b j n := by
  unfold k1_pay1 k1_pay3
  simp only [addf_apply, mulf_apply, exp_apply, bcast_last, bcast_mid, cast_last, cast_mid, shapeCast_self,
    coef_in_apply, decay_apply, step_apply]
  rfl

/-- The gated read-out of the tile at (b, j). -/
theorem gated_apply (x0 x1 : Vec Ideal S64x128 .f32) (x2 : Vec Ideal S64x33 .f32) (x3 : Vec Ideal S64x128x16 .f32)
    (x4 : Vec Ideal S128x16 .f32) (x5 x6 : Vec Ideal S1x128 .f32) (b : Fin 64) (j : Fin 128) :
    k1_pay2 (F := Ideal) (k1_pay3 x0) (k1_pay4 x1) x3 (k1_pay6 x6) (k1_pay7 x2) (k1_pay8 x2) (k1_pay9 x2 x5)
        (k1_pay10 x2 x4 x5) (ix2 b j)
      = Cert.Ssm.ygated (fun b j => x0 (ix2 b j)) (fun b j => x1 (ix2 b j)) (fun b s => x2 (ix2 b s))
          (fun b j n => x3 (ix3 b j n)) (fun j n => x4 (ix2 j n)) (fun j => x5 (ix2 0 j)) (fun j => x6 (ix2 0 j)) b j := by
  unfold k1_pay2
  -- the lane-wise and layout operations outside the sum over the states
  simp only [mulf_apply, addf_apply, logistic_apply, bcast_row]
  rw [sum_states]
  -- under the sum: the new state times the output coefficient
  simp only [mulf_apply, bcast_mid, cast_mid, state_apply, coef_out_apply]
  unfold k1_pay3 k1_pay4 k1_pay6
  simp only [shapeCast_self]
  rfl

end Cert.PaySsm

end
-- ==== Proof.RegionSsm.lean ====
/-
  The second region, from tiles to arrays.  Grid point t = 32·p + q handles rows 64·p … 64·p + 63 of the batch
  and channels 128·q … 128·q + 127: it reads that tile of the main stream, of the gate and of the old state,
  the rows' projections, and the channels' decay rows, biases and skip coefficients, and writes the same tile
  of the new state and of the gated read-out.  Every (row, channel) lies in exactly one tile, and the update
  of a (row, channel) pair uses nothing outside its own row and channel, so after the region both arrays are
  the update of the region's input arrays at every index.
-/
import proofs.«172780_j45122926412156_1_alg».proof.Proof.Gen.KernelIdeal.Frame
import proofs.«172780_j45122926412156_1_alg».proof.Proof.PaySsm
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat Cfg Window)
open Cert.KernelIdeal Cert.KernelIdeal.Gen

namespace Cert.KernelIdeal.RegionSsm

variable (V : (c : Dev nD) → (b : Ref sig .tc) → Buf (Elt Ideal) ((c : Thread nD τ).loc b))

theorem zero2 : (![0, 0] : Fin 2 → Nat) = fun _ => 0 := funext fun a => by fin_cases a <;> rfl
theorem zero3 : (![0, 0, 0] : Fin 3 → Nat) = fun _ => 0 := funext fun a => by fin_cases a <;> rfl

/-! ## The region's input arrays, curried -/

abbrev XM (c : Dev nD) : Fin 2048 → Fin 4096 → EReal := fun b j => (V c main_v11_0 : S2048x4096.Idx → EReal) (ix2 b j)
abbrev ZG (c : Dev nD) : Fin 2048 → Fin 4096 → EReal := fun b j => (V c main_v11_1 : S2048x4096.Idx → EReal) (ix2 b j)
abbrev XP (c : Dev nD) : Fin 2048 → Fin 33 → EReal := fun b s => (V c main_v11_2 : S2048x33.Idx → EReal) (ix2 b s)
abbrev H (c : Dev nD) : Fin 2048 → Fin 4096 → Fin 16 → EReal := fun b j n => (V c main_arg1 : S2048x4096x16.Idx → EReal) (ix3 b j n)
abbrev A (c : Dev nD) : Fin 4096 → Fin 16 → EReal := fun j n => (V c main_v8 : S4096x16.Idx → EReal) (ix2 j n)
abbrev Dtb (c : Dev nD) : Fin 4096 → EReal := fun j => (V c main_v9 : S1x4096.Idx → EReal) (ix2 0 j)
abbrev Dp (c : Dev nD) : Fin 4096 → EReal := fun j => (V c main_v10 : S1x4096.Idx → EReal) (ix2 0 j)

/-- The new state of the whole batch. -/
def stateArr (c : Dev nD) : S2048x4096x16.Idx → EReal := fun i =>
  Cert.Ssm.hnew (XM V c) (XP V c) (H V c) (A V c) (Dtb V c) (i 0) (i 1) (i 2)
/-- The gated read-out of the whole batch. -/
def gatedArr (c : Dev nD) : S2048x4096.Idx → EReal := fun i =>
  Cert.Ssm.ygated (XM V c) (ZG V c) (XP V c) (H V c) (A V c) (Dtb V c) (Dp V c) (i 0) (i 1)

/-! ## Which block each window holds at a point -/

theorem idx : ∀ t : Fin cfg1.N,
    win1_0.index t (0 : Fin 2) = t.val / 32 ∧ win1_0.index t (1 : Fin 2) = t.val % 32
    ∧ win1_1.index t (0 : Fin 2) = t.val / 32 ∧ win1_1.index t (1 : Fin 2) = t.val % 32
    ∧ win1_2.index t (0 : Fin 2) = t.val / 32 ∧ win1_2.index t (1 : Fin 2) = 0
    ∧ win1_3.index t (0 : Fin 3) = t.val / 32 ∧ win1_3.index t (1 : Fin 3) = t.val % 32 ∧ win1_3.index t (2 : Fin 3) = 0
    ∧ win1_4.index t (0 : Fin 2) = t.val % 32 ∧ win1_4.index t (1 : Fin 2) = 0
    ∧ win1_5.index t (0 : Fin 2) = 0 ∧ win1_5.index t (1 : Fin 2) = t.val % 32
    ∧ win1_6.index t (0 : Fin 2) = 0 ∧ win1_6.index t (1 : Fin 2) = t.val % 32
    ∧ win1_7.index t (0 : Fin 3) = t.val / 32 ∧ win1_7.index t (1 : Fin 3) = t.val % 32 ∧ win1_7.index t (2 : Fin 3) = 0
    ∧ win1_8.index t (0 : Fin 2) = t.val / 32 ∧ win1_8.index t (1 : Fin 2) = t.val % 32 :=
  (by decide +kernel : ∀ t : Fin grid1.N, _)

/-- Row b of tile t is row 64·(t / 32) + b of the batch. -/
def row (t : Fin cfg1.N) (b : Fin 64) : Fin 2048 :=
  ⟨t.val / 32 * 64 + b.val, by have hN : grid1.N = 1024 := N_1; have ht : t.val < grid1.N := t.isLt; have := b.isLt; omega⟩
/-- Channel j of tile t is channel 128·(t mod 32) + j. -/
def col (t : Fin cfg1.N) (j : Fin 128) : Fin 4096 :=
  ⟨t.val % 32 * 128 + j.val, by have := j.isLt; omega⟩

/-! ## The input blocks, read where the rows and channels say -/

theorem xm_blk (c : Dev nD) (t : Fin cfg1.N) :
    (fun (b : Fin 64) (j : Fin 128) => iblk1 V c 0 t (ix2 b j)) = fun b j => XM V c (row t b) (col t j) := by
  funext b j
  show (V c main_v11_0 : S2048x4096.Idx → EReal) (((cfg1.win 0).blk t).view.emb (ix2 b j)) = _
  refine congrArg _ (funext fun a => Fin.ext ?_)
  obtain ⟨e0, e1, -⟩ := idx t
  match a with
  | ⟨0, _⟩ => show win1_0.index t (0 : Fin 2) * 64 + 1 * b.val = t.val / 32 * 64 + b.val; rw [e0]; omega
  | ⟨1, _⟩ => show win1_0.index t (1 : Fin 2) * 128 + 1 * j.val = t.val % 32 * 128 + j.val; rw [e1]; omega

theorem z_blk (c : Dev nD) (t : Fin cfg1.N) :
    (fun (b : Fin 64) (j : Fin 128) => iblk1 V c 1 t (ix2 b j)) = fun b j => ZG V c (row t b) (col t j) := by
  funext b j
  show (V c main_v11_1 : S2048x4096.Idx → EReal) (((cfg1.win 1).blk t).view.emb (ix2 b j)) = _
  refine congrArg _ (funext fun a => Fin.ext ?_)
  obtain ⟨-, -, e0, e1, -⟩ := idx t
  match a with
  | ⟨0, _⟩ => show win1_1.index t (0 : Fin 2) * 64 + 1 * b.val = t.val / 32 * 64 + b.val; rw [e0]; omega
  | ⟨1, _⟩ => show win1_1.index t (1 : Fin 2) * 128 + 1 * j.val = t.val % 32 * 128 + j.val; rw [e1]; omega

theorem xp_blk (c : Dev nD) (t : Fin cfg1.N) :
    (fun (b : Fin 64) (s : Fin 33) => iblk1 V c 2 t (ix2 b s)) = fun b s => XP V c (row t b) s := by
  funext b s
  show (V c main_v11_2 : S2048x33.Idx → EReal) (((cfg1.win 2).blk t).view.emb (ix2 b s)) = _
  refine congrArg _ (funext fun a => Fin.ext ?_)
  obtain ⟨-, -, -, -, e0, e1, -⟩ := idx t
  match a with
  | ⟨0, _⟩ => show win1_2.index t (0 : Fin 2) * 64 + 1 * b.val = t.val / 32 * 64 + b.val; rw [e0]; omega
  | ⟨1, _⟩ => show win1_2.index t (1 : Fin 2) * 33 + 1 * s.val = s.val; rw [e1]; omega

theorem h_blk (c : Dev nD) (t : Fin cfg1.N) :
    (fun (b : Fin 64) (j : Fin 128) (n : Fin 16) => iblk1 V c 3 t (ix3 b j n)) = fun b j n => H V c (row t b) (col t j) n := by
  funext b j n
  show (V c main_arg1 : S2048x4096x16.Idx → EReal) (((cfg1.win 3).blk t).view.emb (ix3 b j n)) = _
  refine congrArg _ (funext fun a => Fin.ext ?_)
  obtain ⟨-, -, -, -, -, -, e0, e1, e2, -⟩ := idx t
  match a with
  | ⟨0, _⟩ => show win1_3.index t (0 : Fin 3) * 64 + 1 * b.val = t.val / 32 * 64 + b.val; rw [e0]; omega
  | ⟨1, _⟩ => show win1_3.index t (1 : Fin 3) * 128 + 1 * j.val = t.val % 32 * 128 + j.val; rw [e1]; omega
  | ⟨2, _⟩ => show win1_3.index t (2 : Fin 3) * 16 + 1 * n.val = n.val; rw [e2]; omega

theorem a_blk (c : Dev nD) (t : Fin cfg1.N) :
    (fun (j : Fin 128) (n : Fin 16) => iblk1 V c 4 t (ix2 j n)) = fun j n => A V c (col t j) n := by
  funext j n
  show (V c main_v8 : S4096x16.Idx → EReal) (((cfg1.win 4).blk t).view.emb (ix2 j n)) = _
  refine congrArg _ (funext fun a => Fin.ext ?_)
  obtain ⟨-, -, -, -, -, -, -, -, -, e0, e1, -⟩ := idx t
  match a with
  | ⟨0, _⟩ => show win1_4.index t (0 : Fin 2) * 128 + 1 * j.val = t.val % 32 * 128 + j.val; rw [e0]; omega
  | ⟨1, _⟩ => show win1_4.index t (1 : Fin 2) * 16 + 1 * n.val = n.val; rw [e1]; omega

theorem dtb_blk (c : Dev nD) (t : Fin cfg1.N) :
    (fun (j : Fin 128) => iblk1 V c 5 t (ix2 0 j)) = fun j => Dtb V c (col t j) := by
  funext j
  show (V c main_v9 : S1x4096.Idx → EReal) (((cfg1.win 5).blk t).view.emb (ix2 0 j)) = _
  refine congrArg _ (funext fun a => Fin.ext ?_)
  obtain ⟨-, -, -, -, -, -, -, -, -, -, -, e0, e1, -⟩ := idx t
  match a with
  | ⟨0, _⟩ => show win1_5.index t (0 : Fin 2) * 1 + 1 * 0 = 0; rw [e0]
  | ⟨1, _⟩ => show win1_5.index t (1 : Fin 2) * 128 + 1 * j.val = t.val % 32 * 128 + j.val; rw [e1]; omega

theorem dp_blk (c : Dev nD) (t : Fin cfg1.N) :
    (fun (j : Fin 128) => iblk1 V c 6 t (ix2 0 j)) = fun j => Dp V c (col t j) := by
  funext j
  show (V c main_v10 : S1x4096.Idx → EReal) (((cfg1.win 6).blk t).view.emb (ix2 0 j)) = _
  refine congrArg _ (funext fun a => Fin.ext ?_)
  obtain ⟨-, -, -, -, -, -, -, -, -, -, -, -, -, e0, e1, -⟩ := idx t
  match a with
  | ⟨0, _⟩ => show win1_6.index t (0 : Fin 2) * 1 + 1 * 0 = 0; rw [e0]
  | ⟨1, _⟩ => show win1_6.index t (1 : Fin 2) * 128 + 1 * j.val = t.val % 32 * 128 + j.val; rw [e1]; omega

/-! ## What a point writes back -/

theorem state_tile (c : Dev nD) (t : Fin cfg1.N) (b : Fin 64) (j : Fin 128) (n : Fin 16) :
    k1_pay1 (F := Ideal) (k1_pay3 (iblk1 V c 0 t)) (iblk1 V c 3 t) (k1_pay7 (iblk1 V c 2 t)) (k1_pay9 (iblk1 V c 2 t) (iblk1 V c 5 t))
        (k1_pay10 (iblk1 V c 2 t) (iblk1 V c 4 t) (iblk1 V c 5 t)) (ix3 b j n)
      = stateArr V c (ix3 (row t b) (col t j) n) := by
  refine (Cert.PaySsm.state_apply (iblk1 V c 0 t) (iblk1 V c 2 t) (iblk1 V c 3 t) (iblk1 V c 4 t) (iblk1 V c 5 t) b j n).trans ?_
  rw [xm_blk V c t, xp_blk V c t, h_blk V c t, a_blk V c t, dtb_blk V c t]
  rfl

theorem gated_tile (c : Dev nD) (t : Fin cfg1.N) (b : Fin 64) (j : Fin 128) :
    k1_pay2 (F := Ideal) (k1_pay3 (iblk1 V c 0 t)) (k1_pay4 (iblk1 V c 1 t)) (iblk1 V c 3 t) (k1_pay6 (iblk1 V c 6 t)) (k1_pay7 (iblk1 V c 2 t))
        (k1_pay8 (iblk1 V c 2 t)) (k1_pay9 (iblk1 V c 2 t) (iblk1 V c 5 t)) (k1_pay10 (iblk1 V c 2 t) (iblk1 V c 4 t) (iblk1 V c 5 t)) (ix2 b j)
      = gatedArr V c (ix2 (row t b) (col t j)) := by
  refine (Cert.PaySsm.gated_apply (iblk1 V c 0 t) (iblk1 V c 1 t) (iblk1 V c 2 t) (iblk1 V c 3 t) (iblk1 V c 4 t) (iblk1 V c 5 t) (iblk1 V c 6 t) b j).trans ?_
  rw [xm_blk V c t, z_blk V c t, xp_blk V c t, h_blk V c t, a_blk V c t, dtb_blk V c t, dp_blk V c t]
  rfl

theorem emb7 (t : Fin cfg1.N) (b : Fin 64) (j : Fin 128) (n : Fin 16) :
    ((cfg1.win 7).blk t).view.emb (ix3 b j n) = ix3 (row t b) (col t j) n := by
  refine funext fun a => Fin.ext ?_
  obtain ⟨-, -, -, -, -, -, -, -, -, -, -, -, -, -, -, e0, e1, e2, -⟩ := idx t
  match a with
  | ⟨0, _⟩ => show win1_7.index t (0 : Fin 3) * 64 + 1 * b.val = t.val / 32 * 64 + b.val; rw [e0]; omega
  | ⟨1, _⟩ => show win1_7.index t (1 : Fin 3) * 128 + 1 * j.val = t.val % 32 * 128 + j.val; rw [e1]; omega
  | ⟨2, _⟩ => show win1_7.index t (2 : Fin 3) * 16 + 1 * n.val = n.val; rw [e2]; omega

theorem emb8 (t : Fin cfg1.N) (b : Fin 64) (j : Fin 128) :
    ((cfg1.win 8).blk t).view.emb (ix2 b j) = ix2 (row t b) (col t j) := by
  refine funext fun a => Fin.ext ?_
  obtain ⟨-, -, -, -, -, -, -, -, -, -, -, -, -, -, -, -, -, -, e0, e1⟩ := idx t
  match a with
  | ⟨0, _⟩ => show win1_8.index t (0 : Fin 2) * 64 + 1 * b.val = t.val / 32 * 64 + b.val; rw [e0]; omega
  | ⟨1, _⟩ => show win1_8.index t (1 : Fin 2) * 128 + 1 * j.val = t.val % 32 * 128 + j.val; rw [e1]; omega

theorem flushed7 (c : Dev nD) (t : Fin cfg1.N) :
    (dat1 V c).flushed 7 t = ((cfg1.win 7).blk t).view.read (Elt Ideal) (stateArr V c) := by
  show (cfg1.win 7).cut (grid1.coords t) ((dat1 V c).after 7 t) = _
  rw [after1_7]
  unfold out1_7
  rw [View.canon_unit_zero zero3]
  simp only [View.ld_unit_zero (S := S64x128) zero2, View.ld_unit_zero (S := S64x33) zero2,
    View.ld_unit_zero (S := S64x128x16) zero3, View.ld_unit_zero (S := S128x16) zero2, View.ld_unit_zero (S := S1x128) zero2]
  funext y
  obtain ⟨b, j, n, rfl⟩ : ∃ (b : Fin 64) (j : Fin 128) (n : Fin 16), y = ix3 b j n := ⟨y 0, y 1, y 2, eq_ix3 y⟩
  show k1_pay1 (F := Ideal) (k1_pay3 (iblk1 V c 0 t)) (iblk1 V c 3 t) (k1_pay7 (iblk1 V c 2 t)) (k1_pay9 (iblk1 V c 2 t) (iblk1 V c 5 t))
        (k1_pay10 (iblk1 V c 2 t) (iblk1 V c 4 t) (iblk1 V c 5 t)) (ix3 b j n)
    = stateArr V c (((cfg1.win 7).blk t).view.emb (ix3 b j n))
  rw [emb7]
  exact state_tile V c t b j n

theorem flushed8 (c : Dev nD) (t : Fin cfg1.N) :
    (dat1 V c).flushed 8 t = ((cfg1.win 8).blk t).view.read (Elt Ideal) (gatedArr V c) := by
  show (cfg1.win 8).cut (grid1.coords t) ((dat1 V c).after 8 t) = _
  rw [after1_8]
  unfold out1_8
  rw [View.canon_unit_zero zero2]
  simp only [View.ld_unit_zero (S := S64x128) zero2, View.ld_unit_zero (S := S64x33) zero2,
    View.ld_unit_zero (S := S64x128x16) zero3, View.ld_unit_zero (S := S128x16) zero2, View.ld_unit_zero (S := S1x128) zero2]
  funext y
  obtain ⟨b, j, rfl⟩ : ∃ (b : Fin 64) (j : Fin 128), y = ix2 b j := ⟨y 0, y 1, eq_ix2 y⟩
  show k1_pay2 (F := Ideal) (k1_pay3 (iblk1 V c 0 t)) (k1_pay4 (iblk1 V c 1 t)) (iblk1 V c 3 t) (k1_pay6 (iblk1 V c 6 t)) (k1_pay7 (iblk1 V c 2 t))
        (k1_pay8 (iblk1 V c 2 t)) (k1_pay9 (iblk1 V c 2 t) (iblk1 V c 5 t)) (k1_pay10 (iblk1 V c 2 t) (iblk1 V c 4 t) (iblk1 V c 5 t)) (ix2 b j)
    = gatedArr V c (((cfg1.win 8).blk t).view.emb (ix2 b j))
  rw [emb8]
  exact gated_tile V c t b j

/-! ## Every index lies in some point's block -/

theorem mem7 (t : Fin cfg1.N) (i : S2048x4096x16.Idx) :
    i ∈ ((cfg1.win 7).blk t).view.set ↔ ∀ a : Fin 3, win1_7.index t a * S64x128x16.size a ≤ (i a).val ∧ (i a).val < win1_7.index t a * S64x128x16.size a + S64x128x16.size a := by
  show i ∈ ((View.whole main_v12_0).slice (win1_7.rect t)).set ↔ _
  rw [View.set_slice_whole, Rect.mem_set_unit]
  exact Iff.rfl
theorem mem8 (t : Fin cfg1.N) (i : S2048x4096.Idx) :
    i ∈ ((cfg1.win 8).blk t).view.set ↔ ∀ a : Fin 2, win1_8.index t a * S64x128.size a ≤ (i a).val ∧ (i a).val < win1_8.index t a * S64x128.size a + S64x128.size a := by
  show i ∈ ((View.whole main_v12_1).slice (win1_8.rect t)).set ↔ _
  rw [View.set_slice_whole, Rect.mem_set_unit]
  exact Iff.rfl

/-- The point whose tile holds row b and channel j. -/
def pointOf (b : Fin 2048) (j : Fin 4096) : Fin cfg1.N :=
  ⟨b.val / 64 * 32 + j.val / 128, by have hN : grid1.N = 1024 := N_1; have := b.isLt; have := j.isLt; show b.val / 64 * 32 + j.val / 128 < grid1.N; omega⟩

theorem cover7 (i : S2048x4096x16.Idx) : ∃ t : Fin cfg1.N, (cfg1.win 7).flush t = true ∧ i ∈ ((cfg1.win 7).blk t).view.set := by
  refine ⟨pointOf (i 0) (i 1), flush1_7 _, ?_⟩
  rw [mem7]
  obtain ⟨-, -, -, -, -, -, -, -, -, -, -, -, -, -, -, e0, e1, e2, -⟩ := idx (pointOf (i 0) (i 1))
  have h0 : (i 0).val < 2048 := (i 0).isLt
  have h1 : (i 1).val < 4096 := (i 1).isLt
  have h2 : (i 2).val < 16 := (i 2).isLt
  have hp : (pointOf (i 0) (i 1)).val = (i 0).val / 64 * 32 + (i 1).val / 128 := rfl
  intro a
  match a with
  | ⟨0, _⟩ => show win1_7.index (pointOf (i 0) (i 1)) (0 : Fin 3) * 64 ≤ (i 0).val ∧ (i 0).val < win1_7.index (pointOf (i 0) (i 1)) (0 : Fin 3) * 64 + 64; rw [e0, hp]; omega
  | ⟨1, _⟩ => show win1_7.index (pointOf (i 0) (i 1)) (1 : Fin 3) * 128 ≤ (i 1).val ∧ (i 1).val < win1_7.index (pointOf (i 0) (i 1)) (1 : Fin 3) * 128 + 128; rw [e1, hp]; omega
  | ⟨2, _⟩ => show win1_7.index (pointOf (i 0) (i 1)) (2 : Fin 3) * 16 ≤ (i 2).val ∧ (i 2).val < win1_7.index (pointOf (i 0) (i 1)) (2 : Fin 3) * 16 + 16; rw [e2]; omega

theorem cover8 (i : S2048x4096.Idx) : ∃ t : Fin cfg1.N, (cfg1.win 8).flush t = true ∧ i ∈ ((cfg1.win 8).blk t).view.set := by
  refine ⟨pointOf (i 0) (i 1), flush1_8 _, ?_⟩
  rw [mem8]
  obtain ⟨-, -, -, -, -, -, -, -, -, -, -, -, -, -, -, -, -, -, e0, e1⟩ := idx (pointOf (i 0) (i 1))
  have h0 : (i 0).val < 2048 := (i 0).isLt
  have h1 : (i 1).val < 4096 := (i 1).isLt
  have hp : (pointOf (i 0) (i 1)).val = (i 0).val / 64 * 32 + (i 1).val / 128 := rfl
  intro a
  match a with
  | ⟨0, _⟩ => show win1_8.index (pointOf (i 0) (i 1)) (0 : Fin 2) * 64 ≤ (i 0).val ∧ (i 0).val < win1_8.index (pointOf (i 0) (i 1)) (0 : Fin 2) * 64 + 64; rw [e0, hp]; omega
  | ⟨1, _⟩ => show win1_8.index (pointOf (i 0) (i 1)) (1 : Fin 2) * 128 ≤ (i 1).val ∧ (i 1).val < win1_8.index (pointOf (i 0) (i 1)) (1 : Fin 2) * 128 + 128; rw [e1, hp]; omega

/-! ## The two arrays after the region -/

theorem final7 (c : Dev nD) : (dat1 V c).arrAt 7 cfg1.N = stateArr V c :=
  (dat1 V c).arrAt_eq_of_cover 7 (stateArr V c) (fun t _ => flushed7 V c t) cover7
theorem final8 (c : Dev nD) : (dat1 V c).arrAt 8 cfg1.N = gatedArr V c :=
  (dat1 V c).arrAt_eq_of_cover 8 (gatedArr V c) (fun t _ => flushed8 V c t) cover8

end Cert.KernelIdeal.RegionSsm

end
-- ==== Proof.PayOut.lean ====
/-
  The output-projection tile at an index: 256 rows by 512 columns, a product over 4096 channels plus the residual.
-/
import proofs.«172780_j45122926412156_1_alg».proof.Proof.Gen.KernelIdeal.Skeleton
import proofs.«172780_j45122926412156_1_alg».proof.Proof.Spec
import proofs.«172780_j45122926412156_1_alg».proof.Proof.LibDotNT
import Idealize.ShloMosaic.PureOps.Ideal.Laws
import Idealize.ShloMosaic.Lib.ValueIdx
import Idealize.ShloMosaic.Lib.ValueLayout
import Idealize.ShloMosaic.Lib.Pipeline.Value

noncomputable section

open Idealize.ShloMosaic Idealize.ShloMosaic.ValueIdx Cert.KernelIdeal Cert.KernelIdeal.Gen

namespace Cert.PayOut

/-- The tile's product into the zero accumulator: entry (r, d) is the sum over the 4096 channels of the
    left operand at (r, k) times the right operand at (d, k). Rounding the left operand to the narrower
    format changes nothing over the extended reals. -/
theorem dot_apply (l : FVec Ideal S256x4096 .bf16) (w : FVec Ideal S512x4096 .bf16) (r : Fin 256) (d : Fin 512) :
    matmul (F := Ideal) dot_S256x4096_S512x4096_S256x512_1_1_0_0_n_n none l w
        (constant (F := Ideal) S256x512 .f32 0x00000000#32) (ix2 r d)
      = ∑ k : Fin 4096, l (ix2 r k) * w (ix2 d k) :=
  congrFun (Cert.LibDotNT.matmul_zero (M := 256) (N := 512) (K := 4096)
    dot_S256x4096_S512x4096_S256x512_1_1_0_0_n_n.wf none l w) (ix2 r d)

theorem out_apply (x0 : Vec Ideal S256x4096 .f32) (x1 : Vec Ideal S512x4096 .bf16) (x2 : Vec Ideal S256x512 .f32)
    (r : Fin 256) (d : Fin 512) :
    k2_pay1 (F := Ideal) x0 x1 x2 (ix2 r d)
      = Cert.Ssm.mmT (fun r j => x0 (ix2 r j)) (fun d j => x1 (ix2 d j)) r d + x2 (ix2 r d) := by
  unfold k2_pay1
  simp only [shapeCast_self]
  refine congrArg (· + x2 (ix2 r d)) ?_
  exact dot_apply (truncf .bf16 x0 bitsLt_bf16_f32) x1 r d

end Cert.PayOut

end
-- ==== Proof.RegionOut.lean ====
/-
  The third region, from tiles to the array.  Grid point t = 4·p + q handles rows 256·p … 256·p + 255 of the
  batch and output columns 512·q … 512·q + 511: it reads those rows of the gated read-out, those rows of the
  output weight, and that tile of the input, and writes that tile of the result.  Every (row, column) lies in
  exactly one tile, so after the region the array is the product plus the residual at every index.
-/
import proofs.«172780_j45122926412156_1_alg».proof.Proof.Gen.KernelIdeal.Frame
import proofs.«172780_j45122926412156_1_alg».proof.Proof.PayOut
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat Cfg Window)
open Cert.KernelIdeal Cert.KernelIdeal.Gen

namespace Cert.KernelIdeal.RegionOut

variable (V : (c : Dev nD) → (b : Ref sig .tc) → Buf (Elt Ideal) ((c : Thread nD τ).loc b))

theorem zero2 : (![0, 0] : Fin 2 → Nat) = fun _ => 0 := funext fun a => by fin_cases a <;> rfl

abbrev YG (c : Dev nD) : Fin 2048 → Fin 4096 → EReal := fun b j => (V c main_v12_1 : S2048x4096.Idx → EReal) (ix2 b j)
abbrev WO (c : Dev nD) : Fin 2048 → Fin 4096 → EReal := fun d j => (V c main_v5 : S2048x4096.Idx → EReal) (ix2 d j)
abbrev XR (c : Dev nD) : Fin 2048 → Fin 2048 → EReal := fun b d => (V c main_arg0 : S2048x2048.Idx → EReal) (ix2 b d)

/-- The result rows of the whole batch. -/
def outArr (c : Dev nD) : S2048x2048.Idx → EReal := fun i =>
  Cert.Ssm.mmT (YG V c) (WO V c) (i 0) (i 1) + XR V c (i 0) (i 1)

theorem idx : ∀ t : Fin cfg2.N,
    win2_0.index t (0 : Fin 2) = t.val / 4 ∧ win2_0.index t (1 : Fin 2) = 0
    ∧ win2_1.index t (0 : Fin 2) = t.val % 4 ∧ win2_1.index t (1 : Fin 2) = 0
    ∧ win2_2.index t (0 : Fin 2) = t.val / 4 ∧ win2_2.index t (1 : Fin 2) = t.val % 4
    ∧ win2_3.index t (0 : Fin 2) = t.val / 4 ∧ win2_3.index t (1 : Fin 2) = t.val % 4 :=
  (by decide +kernel : ∀ t : Fin grid2.N, _)

/-- Row r of tile t is row 256·(t / 4) + r of the batch. -/
def row (t : Fin cfg2.N) (r : Fin 256) : Fin 2048 :=
  ⟨t.val / 4 * 256 + r.val, by have hN : grid2.N = 32 := N_2; have ht : t.val < grid2.N := t.isLt; have := r.isLt; omega⟩
/-- Column d of tile t is column 512·(t mod 4) + d. -/
def col (t : Fin cfg2.N) (d : Fin 512) : Fin 2048 :=
  ⟨t.val % 4 * 512 + d.val, by have := d.isLt; omega⟩

theorem yg_blk (c : Dev nD) (t : Fin cfg2.N) :
    (fun (r : Fin 256) (j : Fin 4096) => iblk2 V c 0 t (ix2 r j)) = fun r j => YG V c (row t r) j := by
  funext r j
  show (V c main_v12_1 : S2048x4096.Idx → EReal) (((cfg2.win 0).blk t).view.emb (ix2 r j)) = _
  refine congrArg _ (funext fun a => Fin.ext ?_)
  obtain ⟨e0, e1, -⟩ := idx t
  match a with
  | ⟨0, _⟩ => show win2_0.index t (0 : Fin 2) * 256 + 1 * r.val = t.val / 4 * 256 + r.val; rw [e0]; omega
  | ⟨1, _⟩ => show win2_0.index t (1 : Fin 2) * 4096 + 1 * j.val = j.val; rw [e1]; omega

theorem wo_blk (c : Dev nD) (t : Fin cfg2.N) :
    (fun (d : Fin 512) (j : Fin 4096) => iblk2 V c 1 t (ix2 d j)) = fun d j => WO V c (col t d) j := by
  funext d j
  show (V c main_v5 : S2048x4096.Idx → EReal) (((cfg2.win 1).blk t).view.emb (ix2 d j)) = _
  refine congrArg _ (funext fun a => Fin.ext ?_)
  obtain ⟨-, -, e0, e1, -⟩ := idx t
  match a with
  | ⟨0, _⟩ => show win2_1.index t (0 : Fin 2) * 512 + 1 * d.val = t.val % 4 * 512 + d.val; rw [e0]; omega
  | ⟨1, _⟩ => show win2_1.index t (1 : Fin 2) * 4096 + 1 * j.val = j.val; rw [e1]; omega

theorem xr_blk (c : Dev nD) (t : Fin cfg2.N) (r : Fin 256) (d : Fin 512) :
    iblk2 V c 2 t (ix2 r d) = XR V c (row t r) (col t d) := by
  show (V c main_arg0 : S2048x2048.Idx → EReal) (((cfg2.win 2).blk t).view.emb (ix2 r d)) = _
  refine congrArg _ (funext fun a => Fin.ext ?_)
  obtain ⟨-, -, -, -, e0, e1, -⟩ := idx t
  match a with
  | ⟨0, _⟩ => show win2_2.index t (0 : Fin 2) * 256 + 1 * r.val = t.val / 4 * 256 + r.val; rw [e0]; omega
  | ⟨1, _⟩ => show win2_2.index t (1 : Fin 2) * 512 + 1 * d.val = t.val % 4 * 512 + d.val; rw [e1]; omega

theorem out_tile (c : Dev nD) (t : Fin cfg2.N) (r : Fin 256) (d : Fin 512) :
    k2_pay1 (F := Ideal) (iblk2 V c 0 t) (iblk2 V c 1 t) (iblk2 V c 2 t) (ix2 r d) = outArr V c (ix2 (row t r) (col t d)) := by
  refine (Cert.PayOut.out_apply (iblk2 V c 0 t) (iblk2 V c 1 t) (iblk2 V c 2 t) r d).trans ?_
  rw [yg_blk V c t, wo_blk V c t, xr_blk V c t r d]
  rfl

theorem emb3 (t : Fin cfg2.N) (r : Fin 256) (d : Fin 512) :
    ((cfg2.win 3).blk t).view.emb (ix2 r d) = ix2 (row t r) (col t d) := by
  refine funext fun a => Fin.ext ?_
  obtain ⟨-, -, -, -, -, -, e0, e1⟩ := idx t
  match a with
  | ⟨0, _⟩ => show win2_3.index t (0 : Fin 2) * 256 + 1 * r.val = t.val / 4 * 256 + r.val; rw [e0]; omega
  | ⟨1, _⟩ => show win2_3.index t (1 : Fin 2) * 512 + 1 * d.val = t.val % 4 * 512 + d.val; rw [e1]; omega

theorem flushed3 (c : Dev nD) (t : Fin cfg2.N) :
    (dat2 V c).flushed 3 t = ((cfg2.win 3).blk t).view.read (Elt Ideal) (outArr V c) := by
  show (cfg2.win 3).cut (grid2.coords t) ((dat2 V c).after 3 t) = _
  rw [after2_3]
  unfold out2_3
  rw [View.canon_unit_zero zero2]
  simp only [View.ld_unit_zero (S := S256x4096) zero2, View.ld_unit_zero (S := S512x4096) zero2,
    View.ld_unit_zero (S := S256x512) zero2]
  funext y
  obtain ⟨r, d, rfl⟩ : ∃ (r : Fin 256) (d : Fin 512), y = ix2 r d := ⟨y 0, y 1, eq_ix2 y⟩
  show k2_pay1 (F := Ideal) (iblk2 V c 0 t) (iblk2 V c 1 t) (iblk2 V c 2 t) (ix2 r d)
    = outArr V c (((cfg2.win 3).blk t).view.emb (ix2 r d))
  rw [emb3]
  exact out_tile V c t r d

theorem mem3 (t : Fin cfg2.N) (i : S2048x2048.Idx) :
    i ∈ ((cfg2.win 3).blk t).view.set ↔ ∀ a : Fin 2, win2_3.index t a * S256x512.size a ≤ (i a).val ∧ (i a).val < win2_3.index t a * S256x512.size a + S256x512.size a := by
  show i ∈ ((View.whole main_v13).slice (win2_3.rect t)).set ↔ _
  rw [View.set_slice_whole, Rect.mem_set_unit]
  exact Iff.rfl

/-- The point whose tile holds row b and column d. -/
def pointOf (b d : Fin 2048) : Fin cfg2.N :=
  ⟨b.val / 256 * 4 + d.val / 512, by have hN : grid2.N = 32 := N_2; have := b.isLt; have := d.isLt; show b.val / 256 * 4 + d.val / 512 < grid2.N; omega⟩

theorem cover3 (i : S2048x2048.Idx) : ∃ t : Fin cfg2.N, (cfg2.win 3).flush t = true ∧ i ∈ ((cfg2.win 3).blk t).view.set := by
  refine ⟨pointOf (i 0) (i 1), flush2_3 _, ?_⟩
  rw [mem3]
  obtain ⟨-, -, -, -, -, -, e0, e1⟩ := idx (pointOf (i 0) (i 1))
  have h0 : (i 0).val < 2048 := (i 0).isLt
  have h1 : (i 1).val < 2048 := (i 1).isLt
  have hp : (pointOf (i 0) (i 1)).val = (i 0).val / 256 * 4 + (i 1).val / 512 := rfl
  intro a
  match a with
  | ⟨0, _⟩ => show win2_3.index (pointOf (i 0) (i 1)) (0 : Fin 2) * 256 ≤ (i 0).val ∧ (i 0).val < win2_3.index (pointOf (i 0) (i 1)) (0 : Fin 2) * 256 + 256; rw [e0, hp]; omega
  | ⟨1, _⟩ => show win2_3.index (pointOf (i 0) (i 1)) (1 : Fin 2) * 512 ≤ (i 1).val ∧ (i 1).val < win2_3.index (pointOf (i 0) (i 1)) (1 : Fin 2) * 512 + 512; rw [e1, hp]; omega

theorem final3 (c : Dev nD) : (dat2 V c).arrAt 3 cfg2.N = outArr V c :=
  (dat2 V c).arrAt_eq_of_cover 3 (outArr V c) (fun t _ => flushed3 V c t) cover3

end Cert.KernelIdeal.RegionOut

end
-- ==== Proof.KernelValue.lean ====
/-
  The idealized kernel's two results as functions of the ten argument arrays.

  The fold through the program is read backwards.  The result rows are the third region's array, whose inputs
  are the second region's gated read-out, the output weight and the input rows; the gated read-out and the new
  state are the second region's arrays, whose inputs are the first region's three arrays, the old state, and
  the host's decay matrix, bias row and skip row; the first region's arrays are functions of the input rows,
  the two halves of the input weight, the projection weight, the scale and the shift.  Composing the three
  region functions with the host operations' reads gives the layer of `Cert.Ssm`.
-/
import proofs.«172780_j45122926412156_1_alg».proof.Proof.HostReads
import proofs.«172780_j45122926412156_1_alg».proof.Proof.RegionIn
import proofs.«172780_j45122926412156_1_alg».proof.Proof.RegionSsm
import proofs.«172780_j45122926412156_1_alg».proof.Proof.RegionOut

set_option maxRecDepth 16384

noncomputable section

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.KernelIdeal.HostReads

namespace Cert.KernelIdeal.Value

variable (m : (ℓ : Loc nD τ sig) → Buf (Elt Ideal) ℓ) (ρ : Dev nD → PrngReg)

/-! ## The argument arrays, curried -/

abbrev aX (c : Dev nD) : Fin 2048 → Fin 2048 → EReal := fun a b => (m ((c : Thread nD τ).loc main_arg0) : S2048x2048.Idx → EReal) (ix2 a b)
abbrev aH (c : Dev nD) : Fin 2048 → Fin 4096 → Fin 16 → EReal := fun a b n => (m ((c : Thread nD τ).loc main_arg1) : S2048x4096x16.Idx → EReal) (ix3 a b n)
abbrev aWin (c : Dev nD) : Fin 8192 → Fin 2048 → EReal := fun a b => (m ((c : Thread nD τ).loc main_arg2) : S8192x2048.Idx → EReal) (ix2 a b)
abbrev aWxp (c : Dev nD) : Fin 33 → Fin 4096 → EReal := fun a b => (m ((c : Thread nD τ).loc main_arg3) : S33x4096.Idx → EReal) (ix2 a b)
abbrev aLa (c : Dev nD) : Fin 4096 → Fin 16 → EReal := fun a b => (m ((c : Thread nD τ).loc main_arg4) : S4096x16.Idx → EReal) (ix2 a b)
abbrev aDtb (c : Dev nD) : Fin 4096 → EReal := fun a => (m ((c : Thread nD τ).loc main_arg5) : S4096.Idx → EReal) (ix1 a)
abbrev aDp (c : Dev nD) : Fin 4096 → EReal := fun a => (m ((c : Thread nD τ).loc main_arg6) : S4096.Idx → EReal) (ix1 a)
abbrev aWout (c : Dev nD) : Fin 2048 → Fin 4096 → EReal := fun a b => (m ((c : Thread nD τ).loc main_arg7) : S2048x4096.Idx → EReal) (ix2 a b)
abbrev aG (c : Dev nD) : Fin 2048 → EReal := fun a => (m ((c : Thread nD τ).loc main_arg8) : S2048.Idx → EReal) (ix1 a)
abbrev aB (c : Dev nD) : Fin 2048 → EReal := fun a => (m ((c : Thread nD τ).loc main_arg9) : S2048.Idx → EReal) (ix1 a)

/-! ## The first region's inputs are the arguments, through the host operations -/

theorem in_X (c : Dev nD) : RegionIn.X (V1 m ρ) c = aX m c :=
  funext fun r => funext fun k => congrFun (x_read m ρ c) (ix2 r k)
theorem in_G (c : Dev nD) : RegionIn.Gm (V1 m ρ) c = aG m c := funext fun k => g_read m ρ c k
theorem in_B (c : Dev nD) : RegionIn.Bt (V1 m ρ) c = aB m c := funext fun k => b_read m ρ c k
theorem in_Wx (c : Dev nD) : RegionIn.Wx (V1 m ρ) c = fun j => aWin m c ⟨j.val, by omega⟩ :=
  funext fun j => funext fun k => wx_read m ρ c j k
theorem in_Wz (c : Dev nD) : RegionIn.Wz (V1 m ρ) c = fun j => aWin m c ⟨4096 + j.val, by omega⟩ :=
  funext fun j => funext fun k => wz_read m ρ c j k
theorem in_Wp (c : Dev nD) : RegionIn.Wp (V1 m ρ) c = aWxp m c :=
  funext fun s => funext fun j => congrFun (wp_read m ρ c) (ix2 s j)

theorem main_eq (c : Dev nD) (b : Fin 2048) (j : Fin 4096) :
    RegionIn.mainArr (V1 m ρ) c (ix2 b j) = Cert.Ssm.xmain (aX m c) (aWin m c) (aG m c) (aB m c) b j := by
  unfold RegionIn.mainArr
  rw [in_X, in_G, in_B, in_Wx]
  rfl
theorem gate_eq (c : Dev nD) (b : Fin 2048) (j : Fin 4096) :
    RegionIn.gateArr (V1 m ρ) c (ix2 b j) = Cert.Ssm.gate (aX m c) (aWin m c) (aG m c) (aB m c) b j := by
  unfold RegionIn.gateArr
  rw [in_X, in_G, in_B, in_Wz]
  rfl
theorem proj_eq (c : Dev nD) (b : Fin 2048) (s : Fin 33) :
    RegionIn.projArr (V1 m ρ) c (ix2 b s)
      = Cert.Ssm.mmT (Cert.Ssm.xmain (aX m c) (aWin m c) (aG m c) (aB m c)) (aWxp m c) b s := by
  unfold RegionIn.projArr
  rw [in_Wp, show (fun (r : Fin 2048) (j : Fin 4096) => RegionIn.mainArr (V1 m ρ) c (ix2 r j))
      = Cert.Ssm.xmain (aX m c) (aWin m c) (aG m c) (aB m c) from funext fun r => funext fun j => main_eq m ρ c r j]

/-! ## The second region's inputs -/

theorem v2_main (c : Dev nD) : @Eq (S2048x4096.Idx → EReal) (V2 m ρ c main_v11_0) (RegionIn.mainArr (V1 m ρ) c) :=
  (hF0 m ρ c 6).symm.trans (RegionIn.final6 (V1 m ρ) c)
theorem v2_gate (c : Dev nD) : @Eq (S2048x4096.Idx → EReal) (V2 m ρ c main_v11_1) (RegionIn.gateArr (V1 m ρ) c) :=
  (hF0 m ρ c 7).symm.trans (RegionIn.final7 (V1 m ρ) c)
theorem v2_proj (c : Dev nD) : @Eq (S2048x33.Idx → EReal) (V2 m ρ c main_v11_2) (RegionIn.projArr (V1 m ρ) c) :=
  (hF0 m ρ c 8).symm.trans (RegionIn.final8 (V1 m ρ) c)

theorem ssm_XM (c : Dev nD) : RegionSsm.XM (V2 m ρ) c = Cert.Ssm.xmain (aX m c) (aWin m c) (aG m c) (aB m c) :=
  funext fun b => funext fun j => (congrFun (v2_main m ρ c) (ix2 b j)).trans (main_eq m ρ c b j)
theorem ssm_ZG (c : Dev nD) : RegionSsm.ZG (V2 m ρ) c = Cert.Ssm.gate (aX m c) (aWin m c) (aG m c) (aB m c) :=
  funext fun b => funext fun j => (congrFun (v2_gate m ρ c) (ix2 b j)).trans (gate_eq m ρ c b j)
theorem ssm_XP (c : Dev nD) :
    RegionSsm.XP (V2 m ρ) c = Cert.Ssm.mmT (Cert.Ssm.xmain (aX m c) (aWin m c) (aG m c) (aB m c)) (aWxp m c) :=
  funext fun b => funext fun s => (congrFun (v2_proj m ρ c) (ix2 b s)).trans (proj_eq m ρ c b s)
theorem ssm_H (c : Dev nD) : RegionSsm.H (V2 m ρ) c = aH m c :=
  funext fun b => funext fun j => funext fun n =>
    congrFun ((W2_of_ne m ρ c main_arg1 (by decide)).trans (h_read m ρ c)) (ix3 b j n)
theorem ssm_A (c : Dev nD) : RegionSsm.A (V2 m ρ) c = fun j n => Ideal.exp (aLa m c j n) :=
  funext fun j => funext fun n =>
    (congrFun (W2_of_ne m ρ c main_v8 (by decide)) (ix2 j n)).trans (a_read m ρ c (ix2 j n))
theorem ssm_Dtb (c : Dev nD) : RegionSsm.Dtb (V2 m ρ) c = aDtb m c :=
  funext fun j => (congrFun (W2_of_ne m ρ c main_v9 (by decide)) (ix2 0 j)).trans (dtb_read m ρ c j)
theorem ssm_Dp (c : Dev nD) : RegionSsm.Dp (V2 m ρ) c = aDp m c :=
  funext fun j => (congrFun (W2_of_ne m ρ c main_v10 (by decide)) (ix2 0 j)).trans (dp_read m ρ c j)

theorem state_eq (c : Dev nD) :
    RegionSsm.stateArr (V2 m ρ) c = fun i =>
      Cert.Ssm.stateOut (aX m c) (aH m c) (aWin m c) (aWxp m c) (aLa m c) (aDtb m c) (aG m c) (aB m c) (i 0) (i 1) (i 2) := by
  unfold RegionSsm.stateArr
  rw [ssm_XM, ssm_XP, ssm_H, ssm_A, ssm_Dtb]
  rfl

theorem gated_eq (c : Dev nD) (b : Fin 2048) (j : Fin 4096) :
    RegionSsm.gatedArr (V2 m ρ) c (ix2 b j)
      = Cert.Ssm.ygated (Cert.Ssm.xmain (aX m c) (aWin m c) (aG m c) (aB m c)) (Cert.Ssm.gate (aX m c) (aWin m c) (aG m c) (aB m c))
          (Cert.Ssm.mmT (Cert.Ssm.xmain (aX m c) (aWin m c) (aG m c) (aB m c)) (aWxp m c)) (aH m c)
          (fun j n => Ideal.exp (aLa m c j n)) (aDtb m c) (aDp m c) b j := by
  unfold RegionSsm.gatedArr
  rw [ssm_XM, ssm_ZG, ssm_XP, ssm_H, ssm_A, ssm_Dtb, ssm_Dp]

/-! ## The third region's inputs -/

theorem out_YG (c : Dev nD) :
    RegionOut.YG (V3 m ρ) c
      = Cert.Ssm.ygated (Cert.Ssm.xmain (aX m c) (aWin m c) (aG m c) (aB m c)) (Cert.Ssm.gate (aX m c) (aWin m c) (aG m c) (aB m c))
          (Cert.Ssm.mmT (Cert.Ssm.xmain (aX m c) (aWin m c) (aG m c) (aB m c)) (aWxp m c)) (aH m c)
          (fun j n => Ideal.exp (aLa m c j n)) (aDtb m c) (aDp m c) :=
  funext fun b => funext fun j =>
    (congrFun ((hF1 m ρ c 8).symm.trans (RegionSsm.final8 (V2 m ρ) c)) (ix2 b j)).trans (gated_eq m ρ c b j)
theorem out_WO (c : Dev nD) : RegionOut.WO (V3 m ρ) c = aWout m c :=
  funext fun d => funext fun j =>
    congrFun ((W3_of_ne m ρ c main_v5 (by decide)).trans ((W2_of_ne m ρ c main_v5 (by decide)).trans (wo_read m ρ c))) (ix2 d j)
theorem out_XR (c : Dev nD) : RegionOut.XR (V3 m ρ) c = aX m c :=
  funext fun b => funext fun d =>
    congrFun ((W3_of_ne m ρ c main_arg0 (by decide)).trans (((W2_arr m ρ c 0).trans
      (((dat0 (V1 m ρ) c).arrAt_in 0 rfl _).trans (A_eq0 (V1 m ρ) c 0))).trans (x_read m ρ c))) (ix2 b d)

/-! ## The two results -/

/-- The result rows after the run. -/
theorem layer_value (c : Dev nD) :
    @Eq (S2048x2048.Idx → EReal) (W4 m ρ c (Proc.devRef .tc main_v13)) (fun i =>
      Cert.Ssm.layerOut (aX m c) (aH m c) (aWin m c) (aWxp m c) (aLa m c) (aDtb m c) (aDp m c) (aWout m c) (aG m c) (aB m c) (i 0) (i 1)) := by
  refine (W4_arr m ρ c 3).trans ((RegionOut.final3 (V3 m ρ) c).trans ?_)
  unfold RegionOut.outArr
  rw [out_YG, out_WO, out_XR]
  rfl

/-- The new state after the run. -/
theorem state_value (c : Dev nD) :
    @Eq (S2048x4096x16.Idx → EReal) (W4 m ρ c (Proc.devRef .tc main_v12_0)) (fun i =>
      Cert.Ssm.stateOut (aX m c) (aH m c) (aWin m c) (aWxp m c) (aLa m c) (aDtb m c) (aG m c) (aB m c) (i 0) (i 1) (i 2)) :=
  (W4_of_ne m ρ c main_v12_0 (by decide)).trans ((W3_arr m ρ c 7).trans ((RegionSsm.final7 (V2 m ρ) c).trans (state_eq m ρ c)))

end Cert.KernelIdeal.Value

end
-- ==== Proof.RefValue.lean ====
/-
  The reference program of the selective state-space layer, read at the exact extended reals, computes the
  functions of the specification index by index: its two result stages are the specification's new state
  and output rows.  The chain of host operations is cut at the meaningful stages (row mean, row variance,
  normalised rows, main stream, gate, projection, step size, new state, read-out, gate factor, gated
  read-out, output) and each stage is identified with the corresponding function of the specification.
-/
import proofs.«172780_j45122926412156_1_alg».proof.Proof.Gen.ReferenceIdeal.Read
import proofs.«172780_j45122926412156_1_alg».proof.Proof.Spec

noncomputable section

namespace Cert.RefValue

open Cert.ReferenceIdeal Cert.ReferenceIdeal.Gen Cert.ReferenceIdeal.Read
open Idealize.ShloMosaic Idealize.ShloMosaic.ValueIdx Idealize.SL.Sem Idealize.ShloMosaic.StableHlo
open Cert

/-! ## The float words the reference spells, as extended reals -/

/-- The word 0x45000000 is 2048. -/
theorem ofBits_2048 : Ideal.ofBits .f32 0x45000000#32 = ((2048 : ℝ) : EReal) := by
  simp [Ideal.ofBits, Ideal.ieee, -EReal.coe_mul]; norm_num

/-- The word 0x3F800000 is 1. -/
theorem ofBits_one : Ideal.ofBits .f32 0x3F800000#32 = 1 := by
  simp [Ideal.ofBits, Ideal.ieee, -EReal.coe_mul]; norm_num

/-- The variance guard is a positive real. -/
theorem ofBits_eps : ∃ e : ℝ, 0 < e ∧ Ideal.ofBits .f32 0x3727C5AC#32 = (e : EReal) := by
  simp [Ideal.ofBits, Ideal.ieee, -EReal.coe_mul]

/-! ## Two laws on the extended reals -/

/-- Dividing by the root of a positive extended real is multiplying by its reciprocal root: at `⊤` both sides
    are `a * 0`, at a positive real both are `a` times the inverse of the real root. -/
theorem div_sqrt_eq_mul_rsqrt (a v : EReal) (hv : 0 < v) : Ideal.div a (Ideal.sqrt v) = a * Ideal.rsqrt v := by
  induction v using EReal.rec with
  | bot => exact absurd hv (not_lt.mpr bot_le)
  | top =>
    rw [Ideal.sqrt_top, Ideal.rsqrt_top, Ideal.div, if_neg EReal.top_ne_zero, EReal.inv_top]
  | coe r =>
    have hr : 0 < r := EReal.coe_pos.mp hv
    have hne : ((Real.sqrt r : ℝ) : EReal) ≠ 0 := by
      rw [Ne, EReal.coe_eq_zero]; exact (Real.sqrt_pos.mpr hr).ne'
    rw [Ideal.sqrt_coe, Ideal.rsqrt_coe, if_neg (not_lt.mpr hr.le), if_neg (not_lt.mpr hr.le), if_neg hr.ne',
      Ideal.div, if_neg hne, ← EReal.coe_inv]

/-- A square is nonnegative on the extended reals (the squares of both infinities are `⊤`). -/
theorem ereal_mul_self_nonneg (a : EReal) : 0 ≤ a * a := by
  induction a using EReal.rec with
  | bot => simp
  | top => simp
  | coe r => rw [← EReal.coe_mul]; exact EReal.coe_nonneg.mpr (mul_self_nonneg r)

/-- The guarded variance of a row is positive, whatever the row: a sum of squares is nonnegative, so is its
    quotient by 2048, and the guard is a positive real. -/
theorem var_pos (x : Fin 2048 → EReal) : 0 < Ssm.rowVar x + Ssm.lnEps := by
  obtain ⟨e, he, hE⟩ := ofBits_eps
  have hs : 0 ≤ ∑ k, (x k - Ssm.rowMean x) * (x k - Ssm.rowMean x) :=
    Finset.sum_nonneg fun k _ => ereal_mul_self_nonneg _
  have hv : 0 ≤ Ssm.rowVar x := by
    unfold Ssm.rowVar Ssm.n2048
    rw [ofBits_2048, Ideal.div_coe (by norm_num)]
    exact mul_nonneg hs (EReal.coe_nonneg.mpr (by norm_num))
  unfold Ssm.lnEps
  rw [hE]
  exact Right.add_pos_of_nonneg_of_pos hv (EReal.coe_pos.mpr he)

/-! ## LayerNorm -/

section Ln
variable (x0 : (⟨S2048x2048, .f32⟩ : BufTy).Contents (Elt Ideal)) (x8 x9 : (⟨S2048, .f32⟩ : BufTy).Contents (Elt Ideal))

/-- The row mean. -/
theorem v3_eq (i : S2048x1.Idx) :
    val_main_v3 (F := Ideal) x0 i = Ssm.rowMean (fun k => x0 (ix2 (i 0) k)) := by
  rw [val_main_v3_apply, val_main_v1_apply, val_main_v0_apply, val_main_v2_apply, val_main_cst_0_apply,
    val_main_cst_apply]
  simp only [Ideal.hostDivf_def, Ideal.ofBits_def, Ideal.ofBits_zero_f32, zero_add]
  unfold Ssm.rowMean
  refine congrArg (Ideal.div · _) (Finset.sum_congr rfl fun k _ => congrArg x0 ?_)
  exact funext fun a => Fin.ext (by match a with | ⟨0, _⟩ => rfl | ⟨1, _⟩ => rfl)

/-- A centred entry (first spelling). -/
theorem v5_eq (i : S2048x2048.Idx) :
    val_main_v5 (F := Ideal) x0 i = x0 i - Ssm.rowMean (fun k => x0 (ix2 (i 0) k)) := by
  rw [val_main_v5_apply, val_main_v4_apply, v3_eq]
  rfl

/-- A centred entry (second spelling). -/
theorem v12_eq (i : S2048x2048.Idx) :
    val_main_v12 (F := Ideal) x0 i = x0 i - Ssm.rowMean (fun k => x0 (ix2 (i 0) k)) := by
  rw [val_main_v12_apply, val_main_v11_apply, v3_eq]
  rfl

/-- The row variance. -/
theorem v10_eq (i : S2048x1.Idx) :
    val_main_v10 (F := Ideal) x0 i = Ssm.rowVar (fun k => x0 (ix2 (i 0) k)) := by
  rw [val_main_v10_apply, val_main_v8_apply, val_main_v7_apply, val_main_v9_apply, val_main_cst_2_apply,
    val_main_cst_1_apply]
  simp only [val_main_v6_apply, v5_eq, Ideal.hostDivf_def, Ideal.mulf_def, Ideal.ofBits_def, Ideal.ofBits_zero_f32,
    zero_add]
  unfold Ssm.rowVar
  refine congrArg (Ideal.div · _) (Finset.sum_congr rfl fun k _ => ?_)
  have e : idx_main_v7 (idx_main_v8 i) k = ix2 (i 0) k :=
    funext fun a => Fin.ext (by match a with | ⟨0, _⟩ => rfl | ⟨1, _⟩ => rfl)
  rw [e]
  rfl

/-- The normalised rows. -/
theorem v23_eq (i : S2048x2048.Idx) :
    val_main_v23 (F := Ideal) x0 x8 x9 i
      = Ssm.lnRow (fun k => x0 (ix2 (i 0) k)) (fun k => x8 (ix1 k)) (fun k => x9 (ix1 k)) (i 1) := by
  rw [val_main_v23_apply, val_main_v20_apply, val_main_v17_apply, v12_eq, val_main_v16_apply, val_main_v15_apply,
    val_main_v14_apply, v10_eq, val_main_v13_apply, val_main_cst_3_apply, val_main_v19_apply, val_main_v18_apply,
    val_main_v22_apply, val_main_v21_apply]
  simp only [Ideal.hostDivf_def, Ideal.hostUnary_sqrt_def, Ideal.addf_def, Ideal.mulf_def, Ideal.ofBits_def]
  have e8 : idx_main_v18 (idx_main_v19 i) = ix1 (i 1) :=
    funext fun a => Fin.ext (by match a with | ⟨0, _⟩ => rfl)
  have e9 : idx_main_v21 (idx_main_v22 i) = ix1 (i 1) :=
    funext fun a => Fin.ext (by match a with | ⟨0, _⟩ => rfl)
  rw [e8, e9]
  unfold Ssm.lnRow
  have hx : x0 i = x0 (ix2 (i 0) (i 1)) := congrArg x0 (eq_ix2 i)
  rw [← div_sqrt_eq_mul_rsqrt _ _ (var_pos _), hx]
  rfl

end Ln

/-! ## The two halves of the input product, and the projection -/

section Proj
variable (x0 : (⟨S2048x2048, .f32⟩ : BufTy).Contents (Elt Ideal)) (x2 : (⟨S8192x2048, .f32⟩ : BufTy).Contents (Elt Ideal)) (x3 : (⟨S33x4096, .f32⟩ : BufTy).Contents (Elt Ideal)) (x8 x9 : (⟨S2048, .f32⟩ : BufTy).Contents (Elt Ideal))

/-- The main stream: the first 4096 columns of the normalised rows times the transposed input weight. -/
theorem v26_eq (i : S2048x4096.Idx) :
    val_main_v26 (F := Ideal) x0 x2 x8 x9 i
      = Ssm.xmain (fun a b => x0 (ix2 a b)) (fun a b => x2 (ix2 a b)) (fun a => x8 (ix1 a)) (fun a => x9 (ix1 a))
          (i 0) (i 1) := by
  rw [val_main_v26_apply, val_main_v25_apply]
  simp only [v23_eq, val_main_v24_apply]
  unfold Ssm.xmain Ssm.mmT Ssm.xnorm
  refine Finset.sum_congr rfl fun k _ => ?_
  have h1 : (i 1).val < 4096 := (i 1).isLt
  have e : idx_main_v24 (ridx_main_v25 (idx_main_v26 i) k) = ix2 ⟨(i 1).val, by omega⟩ k :=
    funext fun a => Fin.ext (by match a with | ⟨0, _⟩ => rfl | ⟨1, _⟩ => rfl)
  rw [e]
  rfl

/-- The gate: the last 4096 columns of the same product. -/
theorem v27_eq (i : S2048x4096.Idx) :
    val_main_v27 (F := Ideal) x0 x2 x8 x9 i
      = Ssm.gate (fun a b => x0 (ix2 a b)) (fun a b => x2 (ix2 a b)) (fun a => x8 (ix1 a)) (fun a => x9 (ix1 a))
          (i 0) (i 1) := by
  rw [val_main_v27_apply, val_main_v25_apply]
  simp only [v23_eq, val_main_v24_apply]
  unfold Ssm.gate Ssm.mmT Ssm.xnorm
  refine Finset.sum_congr rfl fun k _ => ?_
  have h1 : (i 1).val < 4096 := (i 1).isLt
  have e : idx_main_v24 (ridx_main_v25 (idx_main_v27 i) k) = ix2 ⟨4096 + (i 1).val, by omega⟩ k :=
    funext fun a => Fin.ext (by match a with | ⟨0, _⟩ => rfl | ⟨1, _⟩ => rfl)
  rw [e]
  rfl

/-- The projection: the main stream times the transposed projection weight. -/
theorem v29_eq (i : S2048x33.Idx) :
    val_main_v29 (F := Ideal) x0 x2 x3 x8 x9 i
      = Ssm.mmT (Ssm.xmain (fun a b => x0 (ix2 a b)) (fun a b => x2 (ix2 a b)) (fun a => x8 (ix1 a))
          (fun a => x9 (ix1 a))) (fun a b => x3 (ix2 a b)) (i 0) (i 1) := by
  rw [val_main_v29_apply]
  simp only [v26_eq, val_main_v28_apply]
  unfold Ssm.mmT
  refine Finset.sum_congr rfl fun k _ => ?_
  have e : idx_main_v28 (ridx_main_v29 i k) = ix2 (i 1) k :=
    funext fun a => Fin.ext (by match a with | ⟨0, _⟩ => rfl | ⟨1, _⟩ => rfl)
  rw [e]
  rfl

end Proj

/-! ## The step size -/

/-- The reference's softplus at one element. Its guard compares a value with itself, which is never unequal
    on the extended reals, so the second branch is taken: the maximum with zero plus `log (1 + exp (-|u|))`. -/
theorem softplus_eq (u : EReal) :
    Scalar.select (FloatOps.cmpf (F := Ideal) (φ := .f32) .une (u - 0) (u - 0)) (u + 0)
        (max u 0 + Ideal.log1p (Ideal.exp (-(max (u - 0) (-(u - 0)))))) = Ssm.softplus u := by
  have hc : FloatOps.cmpf (F := Ideal) (φ := .f32) .une (u - 0) (u - 0) = 0#1 := by
    rw [Ideal.cmpf_def]; simp [Ideal.cmp]
  rw [hc, select_zero, sub_zero]
  rfl

section Step
variable (x0 : (⟨S2048x2048, .f32⟩ : BufTy).Contents (Elt Ideal)) (x2 : (⟨S8192x2048, .f32⟩ : BufTy).Contents (Elt Ideal)) (x3 : (⟨S33x4096, .f32⟩ : BufTy).Contents (Elt Ideal)) (x5 : (⟨S4096, .f32⟩ : BufTy).Contents (Elt Ideal)) (x8 x9 : (⟨S2048, .f32⟩ : BufTy).Contents (Elt Ideal))

/-- The argument of the softplus: the last projection column plus the channel's bias. -/
theorem v38_eq (i : S2048x4096.Idx) :
    val_main_v38 (F := Ideal) x0 x2 x3 x5 x8 x9 i
      = Ssm.mmT (Ssm.xmain (fun a b => x0 (ix2 a b)) (fun a b => x2 (ix2 a b)) (fun a => x8 (ix1 a))
          (fun a => x9 (ix1 a))) (fun a b => x3 (ix2 a b)) (i 0) 32 + x5 (ix1 (i 1)) := by
  have e : idx_main_v32 (idx_main_v33 (idx_main_v34 (idx_main_v36 i))) = ix2 (n0 := 2048) (i 0) (32 : Fin 33) :=
    funext fun a => Fin.ext (by match a with | ⟨0, _⟩ => exact Nat.div_one _ | ⟨1, _⟩ => rfl)
  have e5 : idx_main_v35 (idx_main_v37 i) = ix1 (i 1) :=
    funext fun a => Fin.ext (by match a with | ⟨0, _⟩ => rfl)
  rw [val_main_v38_apply, val_main_v36_apply, val_main_v34_apply, val_main_v33_apply, val_main_v32_apply, e, v29_eq,
    val_main_v37_apply, val_main_v35_apply, e5]
  rfl

/-- The step size. -/
theorem v39_eq (i : S2048x4096.Idx) :
    val_main_v39 (F := Ideal) x0 x2 x3 x5 x8 x9 i
      = Ssm.delta (Ssm.mmT (Ssm.xmain (fun a b => x0 (ix2 a b)) (fun a b => x2 (ix2 a b)) (fun a => x8 (ix1 a))
          (fun a => x9 (ix1 a))) (fun a b => x3 (ix2 a b))) (fun a => x5 (ix1 a)) (i 0) (i 1) := by
  simp only [val_main_v39_apply, val_main_call0_v4_apply, val_main_call0_v6_apply, val_main_call0_v11_apply,
    val_main_call0_v1_apply, val_main_call0_v10_apply, val_main_call0_v9_apply, val_main_call0_v8_apply,
    val_main_call0_v7_apply, val_main_call0_v3_apply, val_main_call0_v0_apply, val_main_call0_v2_apply,
    val_main_call0_v5_apply, val_main_call0_cst_apply, v38_eq, Ideal.subf_def, Ideal.addf_def, Ideal.maximumf_def,
    Ideal.hostUnary_log1p_def, Ideal.hostUnary_exp_def, Ideal.hostNegf_def, Ideal.hostAbsf_def, Ideal.negf_def,
    Ideal.absf_def, Ideal.ofBits_def, Ideal.ofBits_zero_f32]
  exact softplus_eq _

end Step

/-! ## The new state -/

section State
variable (x0 : (⟨S2048x2048, .f32⟩ : BufTy).Contents (Elt Ideal)) (x1 : (⟨S2048x4096x16, .f32⟩ : BufTy).Contents (Elt Ideal)) (x2 : (⟨S8192x2048, .f32⟩ : BufTy).Contents (Elt Ideal)) (x3 : (⟨S33x4096, .f32⟩ : BufTy).Contents (Elt Ideal)) (x4 : (⟨S4096x16, .f32⟩ : BufTy).Contents (Elt Ideal))
  (x5 : (⟨S4096, .f32⟩ : BufTy).Contents (Elt Ideal)) (x8 x9 : (⟨S2048, .f32⟩ : BufTy).Contents (Elt Ideal))

/-- The new state: the old one decayed by `exp (-δ · exp log_A)`, plus `δ` times the input coefficient times
    the main stream. -/
theorem state_eq (i : S2048x4096x16.Idx) :
    val_main_v57 (F := Ideal) x0 x1 x2 x3 x4 x5 x8 x9 i
      = Ssm.stateOut (fun a b => x0 (ix2 a b)) (fun a b n => x1 (ix3 a b n)) (fun a b => x2 (ix2 a b))
          (fun a b => x3 (ix2 a b)) (fun a b => x4 (ix2 a b)) (fun a => x5 (ix1 a)) (fun a => x8 (ix1 a))
          (fun a => x9 (ix1 a)) (i 0) (i 1) (i 2) := by
  have e4 : idx_main_v43 (idx_main_v45 i) = ix2 (n0 := 4096) (n1 := 16) (i 1) (i 2) :=
    funext fun a => Fin.ext (by match a with | ⟨0, _⟩ => rfl | ⟨1, _⟩ => rfl)
  have hx : x1 i = x1 (ix3 (n0 := 2048) (n1 := 4096) (n2 := 16) (i 0) (i 1) (i 2)) := congrArg x1 (eq_ix3 i)
  rw [val_main_v57_apply, val_main_v53_apply, val_main_v47_apply, val_main_v46_apply, val_main_v44_apply,
    val_main_v42_apply, val_main_v41_apply, v39_eq, val_main_v45_apply, val_main_v43_apply, val_main_v40_apply, e4,
    val_main_v56_apply, val_main_v52_apply, val_main_v50_apply, val_main_v48_apply, v39_eq, val_main_v51_apply,
    val_main_v49_apply, val_main_v30_apply, v29_eq, val_main_v55_apply, val_main_v54_apply, v26_eq, hx]
  rfl

end State

/-! ## The gated read-out and the output rows -/

/-- The reference's `z · (1 / (1 + exp (-z)))`, with the word 0x3F800000 for 1, is `z` times the logistic
    function of `z`. -/
theorem silu_eq (z : EReal) :
    z * Ideal.div (Ideal.ofBits .f32 0x3F800000#32) (Ideal.ofBits .f32 0x3F800000#32 + Ideal.exp (-z))
      = z * Ideal.logistic z := by
  rw [ofBits_one]
  rfl

section Out
variable (x0 : (⟨S2048x2048, .f32⟩ : BufTy).Contents (Elt Ideal)) (x1 : (⟨S2048x4096x16, .f32⟩ : BufTy).Contents (Elt Ideal)) (x2 : (⟨S8192x2048, .f32⟩ : BufTy).Contents (Elt Ideal)) (x3 : (⟨S33x4096, .f32⟩ : BufTy).Contents (Elt Ideal)) (x4 : (⟨S4096x16, .f32⟩ : BufTy).Contents (Elt Ideal))
  (x5 x6 : (⟨S4096, .f32⟩ : BufTy).Contents (Elt Ideal)) (x7 : (⟨S2048x4096, .f32⟩ : BufTy).Contents (Elt Ideal)) (x8 x9 : (⟨S2048, .f32⟩ : BufTy).Contents (Elt Ideal))

/-- The read-out: the new state against the sixteen output coefficients, plus the skip term. -/
theorem v65_eq (i : S2048x4096.Idx) :
    val_main_v65 (F := Ideal) x0 x1 x2 x3 x4 x5 x6 x8 x9 i
      = (∑ n : Fin 16,
          Ssm.stateOut (fun a b => x0 (ix2 a b)) (fun a b n => x1 (ix3 a b n)) (fun a b => x2 (ix2 a b))
              (fun a b => x3 (ix2 a b)) (fun a b => x4 (ix2 a b)) (fun a => x5 (ix1 a)) (fun a => x8 (ix1 a))
              (fun a => x9 (ix1 a)) (i 0) (i 1) n
            * Ssm.mmT (Ssm.xmain (fun a b => x0 (ix2 a b)) (fun a b => x2 (ix2 a b)) (fun a => x8 (ix1 a))
                (fun a => x9 (ix1 a))) (fun a b => x3 (ix2 a b)) (i 0) ⟨16 + n.val, by omega⟩)
        + x6 (ix1 (i 1))
          * Ssm.xmain (fun a b => x0 (ix2 a b)) (fun a b => x2 (ix2 a b)) (fun a => x8 (ix1 a))
              (fun a => x9 (ix1 a)) (i 0) (i 1) := by
  have e6 : idx_main_v62 (idx_main_v63 i) = ix1 (n := 4096) (i 1) :=
    funext fun a => Fin.ext (by match a with | ⟨0, _⟩ => rfl)
  rw [val_main_v65_apply, val_main_v61_apply, val_main_cst_4_apply, val_main_v64_apply, val_main_v63_apply,
    val_main_v62_apply, e6, v26_eq]
  simp only [val_main_v60_apply, state_eq, val_main_v59_apply, val_main_v58_apply, val_main_v31_apply, v29_eq,
    Ideal.addf_def, Ideal.mulf_def, Ideal.ofBits_def, Ideal.ofBits_zero_f32, zero_add]
  rfl

/-- The gate factor `z · logistic z`. -/
theorem v66_eq (i : S2048x4096.Idx) :
    val_main_v66 (F := Ideal) x0 x2 x8 x9 i
      = Ssm.gate (fun a b => x0 (ix2 a b)) (fun a b => x2 (ix2 a b)) (fun a => x8 (ix1 a)) (fun a => x9 (ix1 a))
            (i 0) (i 1)
          * Ideal.logistic (Ssm.gate (fun a b => x0 (ix2 a b)) (fun a b => x2 (ix2 a b)) (fun a => x8 (ix1 a))
              (fun a => x9 (ix1 a)) (i 0) (i 1)) := by
  simp only [val_main_v66_apply, val_main_call1_v5_apply, val_main_call1_v4_apply, val_main_call1_cst_0_apply,
    val_main_call1_v3_apply, val_main_call1_v2_apply, val_main_call1_cst_apply, val_main_call1_v1_apply,
    val_main_call1_v0_apply, v27_eq, Ideal.mulf_def, Ideal.hostDivf_def, Ideal.addf_def, Ideal.hostUnary_exp_def,
    Ideal.hostNegf_def, Ideal.negf_def, Ideal.ofBits_def]
  exact silu_eq _

/-- The gated read-out. -/
theorem v67_eq (i : S2048x4096.Idx) :
    val_main_v67 (F := Ideal) x0 x1 x2 x3 x4 x5 x6 x8 x9 i
      = Ssm.ygated
          (Ssm.xmain (fun a b => x0 (ix2 a b)) (fun a b => x2 (ix2 a b)) (fun a => x8 (ix1 a)) (fun a => x9 (ix1 a)))
          (Ssm.gate (fun a b => x0 (ix2 a b)) (fun a b => x2 (ix2 a b)) (fun a => x8 (ix1 a)) (fun a => x9 (ix1 a)))
          (Ssm.mmT (Ssm.xmain (fun a b => x0 (ix2 a b)) (fun a b => x2 (ix2 a b)) (fun a => x8 (ix1 a))
            (fun a => x9 (ix1 a))) (fun a b => x3 (ix2 a b)))
          (fun a b n => x1 (ix3 a b n)) (fun j n => Ideal.exp (x4 (ix2 j n))) (fun a => x5 (ix1 a))
          (fun a => x6 (ix1 a)) (i 0) (i 1) := by
  rw [val_main_v67_apply, v65_eq, v66_eq]
  rfl

/-- The output rows: the gated read-out times the transposed output weight, plus the input row. -/
theorem layer_eq (i : S2048x2048.Idx) :
    val_main_v70 (F := Ideal) x0 x1 x2 x3 x4 x5 x6 x7 x8 x9 i
      = Ssm.layerOut (fun a b => x0 (ix2 a b)) (fun a b n => x1 (ix3 a b n)) (fun a b => x2 (ix2 a b))
          (fun a b => x3 (ix2 a b)) (fun a b => x4 (ix2 a b)) (fun a => x5 (ix1 a)) (fun a => x6 (ix1 a))
          (fun a b => x7 (ix2 a b)) (fun a => x8 (ix1 a)) (fun a => x9 (ix1 a)) (i 0) (i 1) := by
  have e7 : ∀ k, idx_main_v68 (ridx_main_v69 i k) = ix2 (n0 := 2048) (n1 := 4096) (i 1) k := fun k =>
    funext fun a => Fin.ext (by match a with | ⟨0, _⟩ => rfl | ⟨1, _⟩ => rfl)
  have hx : x0 i = x0 (ix2 (n0 := 2048) (n1 := 2048) (i 0) (i 1)) := congrArg x0 (eq_ix2 i)
  rw [val_main_v70_apply, val_main_v69_apply, hx]
  simp only [v67_eq, val_main_v68_apply, e7]
  rfl

end Out

end Cert.RefValue

end
-- ==== Proof.lean ====
/-
  One step of a selective state-space layer: a kernel in three accelerator regions against its plain reference.

  Both programs normalise each input row (mean, variance, reciprocal root of the guarded variance, scale and
  shift), take the main stream and the gate as products with the two halves of the input weight, project the
  main stream to 33 columns (sixteen input coefficients, sixteen output coefficients, one step size), form the
  step size δ by softplus, move the state to exp(-δ·A)·h + δ·B·x, read it out against the output coefficients,
  add the skip term, gate by z·logistic(z), and multiply by the output weight, adding the input row back.

  Over the extended reals the two spellings differ in four places, none of which needs the inputs to be finite:
  the kernel multiplies by the reciprocal root where the reference divides by the root (equal because the
  guarded variance is positive: a sum of squares is nonnegative and the guard is a positive real); the kernel's
  lane sums have no initial term where the host's sums start from zero; both guard softplus by a test of a
  number against itself, which never fires; and the kernel's logistic is the reference's 1 / (1 + exp(-z)).
  Tiling does not change a value: every row, channel and column lies in exactly one tile of each region, and
  each entry depends only on its own row (and channel).

  The kernel's run is read as a fold through its host operations and regions (KernelRun, KernelValue, the
  three Region modules over the tile formulas of the Pay modules); the reference's run is its generated run
  read one operation at a time (RefValue); both end at the functions of `Cert.Ssm`.
-/
import proofs.«172780_j45122926412156_1_alg».proof.Defs
import proofs.«172780_j45122926412156_1_alg».proof.Proof.Gen.Kernel
import proofs.«172780_j45122926412156_1_alg».proof.Proof.Gen.Kernel.Skeleton
import proofs.«172780_j45122926412156_1_alg».proof.Proof.Gen.Kernel.Launch
import proofs.«172780_j45122926412156_1_alg».proof.Proof.Gen.Kernel.Points
import proofs.«172780_j45122926412156_1_alg».proof.Proof.Gen.Kernel.Frame
import proofs.«172780_j45122926412156_1_alg».proof.Proof.Gen.KernelIdeal
import proofs.«172780_j45122926412156_1_alg».proof.Proof.Gen.KernelIdeal.Skeleton
import proofs.«172780_j45122926412156_1_alg».proof.Proof.Gen.KernelIdeal.Launch
import proofs.«172780_j45122926412156_1_alg».proof.Proof.Gen.KernelIdeal.Points
import proofs.«172780_j45122926412156_1_alg».proof.Proof.Gen.KernelIdeal.Frame
import proofs.«172780_j45122926412156_1_alg».proof.Proof.Gen.ReferenceIdeal
import proofs.«172780_j45122926412156_1_alg».proof.Proof.Gen.Pre_finite_inputs
import proofs.«172780_j45122926412156_1_alg».proof.Proof.Gen.ReferenceIdeal.Run
import proofs.«172780_j45122926412156_1_alg».proof.Proof.Gen.ReferenceIdeal.Read
import proofs.«172780_j45122926412156_1_alg».proof.Proof.KernelRun
import proofs.«172780_j45122926412156_1_alg».proof.Proof.KernelValue
import proofs.«172780_j45122926412156_1_alg».proof.Proof.RefValue
import Idealize.ShloMosaic.Adequacy
import Idealize.ShloMosaic.Init

noncomputable section

namespace Cert.Proof

open Idealize.ShloMosaic Idealize.SL.Sem Idealize.ShloMosaic.ValueIdx

/-- The three frames: the two kernels' by the fold through their regions, the reference's by its run. -/
theorem frame_kernel [Cert.Kernel.Facts] [Cert.Pre_finite_inputs.Facts] : Cert.frame_Kernel :=
  fun m ρ _ => Cert.Kernel.Gen.frame m ρ
theorem frame_kernelIdeal [Cert.KernelIdeal.Facts] [Cert.Pre_finite_inputs.Facts] : Cert.frame_KernelIdeal :=
  fun m ρ _ => Cert.KernelIdeal.Gen.frame m ρ
theorem frame_referenceIdeal [Cert.ReferenceIdeal.Facts] [Cert.Pre_finite_inputs.Facts] : Cert.frame_ReferenceIdeal :=
  fun m ρ _ => (θ_run Cert.ReferenceIdeal.defs _ _).mono (fun _ h c => (h c).2.2)
    (Cert.ReferenceIdeal.Value.run (F := Ideal) m ρ)

/-- The reference's result rows, from a memory that agrees with the kernel's on the arguments. -/
theorem ref_layer
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) :
    @Eq (Cert.KernelIdeal.S2048x2048.Idx → EReal) (Cert.ReferenceIdeal.Value.res_main_v70 m' c) (fun i =>
      Cert.Ssm.layerOut (Cert.KernelIdeal.Value.aX m c) (Cert.KernelIdeal.Value.aH m c) (Cert.KernelIdeal.Value.aWin m c)
        (Cert.KernelIdeal.Value.aWxp m c) (Cert.KernelIdeal.Value.aLa m c) (Cert.KernelIdeal.Value.aDtb m c)
        (Cert.KernelIdeal.Value.aDp m c) (Cert.KernelIdeal.Value.aWout m c) (Cert.KernelIdeal.Value.aG m c)
        (Cert.KernelIdeal.Value.aB m c) (i 0) (i 1)) := by
  rw [Cert.ReferenceIdeal.Read.val_main_v70_eq, h0, h1, h2, h3, h4, h5, h6, h7, h8, h9]
  funext i
  exact Cert.RefValue.layer_eq _ _ _ _ _ _ _ _ _ _ i

/-- The reference's new state, from a memory that agrees with the kernel's on the arguments. -/
theorem ref_state
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) :
    @Eq (Cert.KernelIdeal.S2048x4096x16.Idx → EReal) (Cert.ReferenceIdeal.Value.res_main_v57 m' c) (fun i =>
      Cert.Ssm.stateOut (Cert.KernelIdeal.Value.aX m c) (Cert.KernelIdeal.Value.aH m c) (Cert.KernelIdeal.Value.aWin m c)
        (Cert.KernelIdeal.Value.aWxp m c) (Cert.KernelIdeal.Value.aLa m c) (Cert.KernelIdeal.Value.aDtb m c)
        (Cert.KernelIdeal.Value.aG m c) (Cert.KernelIdeal.Value.aB m c) (i 0) (i 1) (i 2)) := by
  rw [Cert.ReferenceIdeal.Read.val_main_v57_eq, h0, h1, h2, h3, h4, h5, h8, h9]
  funext i
  exact Cert.RefValue.state_eq _ _ _ _ _ _ _ _ i

/-- From memories that agree on the ten arguments both idealized programs end at the same result rows and the
    same new state: the functions of `Cert.Ssm` of the arguments. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => (fun i =>
      Cert.Ssm.layerOut (Cert.KernelIdeal.Value.aX m c) (Cert.KernelIdeal.Value.aH m c) (Cert.KernelIdeal.Value.aWin m c)
        (Cert.KernelIdeal.Value.aWxp m c) (Cert.KernelIdeal.Value.aLa m c) (Cert.KernelIdeal.Value.aDtb m c)
        (Cert.KernelIdeal.Value.aDp m c) (Cert.KernelIdeal.Value.aWout m c) (Cert.KernelIdeal.Value.aG m c)
        (Cert.KernelIdeal.Value.aB m c) (i 0) (i 1)),
    fun c => (fun i =>
      Cert.Ssm.stateOut (Cert.KernelIdeal.Value.aX m c) (Cert.KernelIdeal.Value.aH m c) (Cert.KernelIdeal.Value.aWin m c)
        (Cert.KernelIdeal.Value.aWxp m c) (Cert.KernelIdeal.Value.aLa m c) (Cert.KernelIdeal.Value.aDtb m c)
        (Cert.KernelIdeal.Value.aG m c) (Cert.KernelIdeal.Value.aB m c) (i 0) (i 1) (i 2)), ?_, ?_⟩
  · exact (θ_run Cert.KernelIdeal.defs _ _).mono
      (fun r h c => ⟨(h c).1.trans (Cert.KernelIdeal.Value.layer_value m ρ c),
        (h c).2.1.trans (Cert.KernelIdeal.Value.state_value m ρ c), (h c).2.2⟩)
      (Cert.KernelIdeal.Named.run (F := Ideal) m ρ)
  · refine (θ_run Cert.ReferenceIdeal.defs _ _).mono (fun r h c => ?_)
      (Cert.ReferenceIdeal.Value.run (F := Ideal) m' ρ')
    obtain ⟨a0, a1, a2, a3, a4, a5, a6, a7, a8, a9⟩ := hagree c
    exact ⟨(h c).1.trans (ref_layer m m' c a0 a1 a2 a3 a4 a5 a6 a7 a8 a9),
      (h c).2.1.trans (ref_state m m' c a0 a1 a2 a3 a4 a5 a8 a9), (h c).2.2⟩

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
